-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096x4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S8192x4096 .f32) (main_arg1 : FVec F S4096x4096 .f32) (main_arg2 : FVec F S4096x4096 .f32) (main_arg3 : FVec F S4096 .f32) (main_arg4 : FVec F S4096 .f32) (main_arg5 : FVec F S4096x4096 .f32) (main_arg6 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S512x512 : Shape := ⟨2, ![512, 512]⟩
abbrev S_ : Shape := ⟨0, ![]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 22
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .bf16⟩
  | .hbm, ⟨8, _⟩ => ⟨S_, .f32⟩
  | .hbm, ⟨9, _⟩ => ⟨S4096, .f32⟩
  | .hbm, ⟨10, _⟩ => ⟨S4096, .i1⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S8192x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S2048x512, .f32⟩
  | .local _ .vmem, ⟨9, _⟩ => ⟨S2048x512, .f32⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  bcast_S_S4096 : S_.BroadcastsInDim S4096 (![] : Fin 0 → Fin S4096.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .f32 = 32 ∨ (Rect.block (s := S4096x4096) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4096.size a
  hwx0_3 : ∀ i : grid0.Coords, EltTy.bits .bf16 = 32 ∨ (Rect.block (s := S4096x4096) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .f32 = 32 ∨ (Rect.block (s := S8192x4096) S2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x4096.size a
  hwx1_3 : ∀ i : grid1.Coords, EltTy.bits .f32 = 32 ∨ (Rect.block (s := S8192x4096) S2048x1024.size (cc1_transform_3 i) (hinb1_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096, .f32⟩
  | .hbm, ⟨5, _⟩ => ⟨S4096x4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.K_R0.lean ====
/- REGION 0 (pallas_call 0, the pointwise kernel that samples the weight) at a PARAMETER V: the TensorCore's buffer
   contents when the region is entered. For each of the four windows (inputs 0, 1, 2; output 3) the block the window
   shows at a grid point; what the body leaves in the output's staging buffer as a function of the three input blocks;
   the body's triple; the pipeline's proof data; and the body obligation at every grid point. Everything is generic in
   the float instance. -/
import proofs.«159802_j18494129176930_2_alg».proof.Proof.Gen.Kernel.Launch
import proofs.«159802_j18494129176930_2_alg».proof.Proof.Gen.Kernel.Skeleton
import proofs.«159802_j18494129176930_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the region's entry
variable (V : (c : Dev nD) → (b : Ref sig .tc) → Buf (Elt F) ((c : Thread nD τ).loc b))

/-! ## The blocks the windows show -/

/-- The block of window w at grid point t: the window's rectangle at t read off the window's array as V has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose block the body leaves untouched (hkeep) over an array that is V's (harr) shows, in its
    current staging buffer, its block at t -- whether the pipeline fetched at t or the block index stood still.
    The three inputs are uncut and never idle, so the side conditions are definitional. -/
theorem before0_0_of {c : Dev nD} (dat : Dat τ (Elt F) Unit ℕ (UR sig nD τ) ℕ cfg0 c) (harr : dat.A 0 = V c (Pipeline.arrRef spec0 0))
    (hkeep : ∀ t, dat.after 0 t = iblk0 V c 0 t) (t : Fin cfg0.N) (d) : dat.before 0 t d = iblk0 V c 0 t :=
  (dat.before_in_eq_fetched 0 rfl (fun _ => rfl) (fun _ _ _ => rfl) (fun t => by rw [hkeep]; unfold Dat.blockOf iblk0; rw [harr]; try rfl) t d).trans
    (by unfold Dat.fetched Dat.blockOf iblk0; rw [harr]; try rfl)

theorem before0_1_of {c : Dev nD} (dat : Dat τ (Elt F) Unit ℕ (UR sig nD τ) ℕ cfg0 c) (harr : dat.A 1 = V c (Pipeline.arrRef spec0 1))
    (hkeep : ∀ t, dat.after 1 t = iblk0 V c 1 t) (t : Fin cfg0.N) (d) : dat.before 1 t d = iblk0 V c 1 t :=
  (dat.before_in_eq_fetched 1 rfl (fun _ => rfl) (fun _ _ _ => rfl) (fun t => by rw [hkeep]; unfold Dat.blockOf iblk0; rw [harr]; try rfl) t d).trans
    (by unfold Dat.fetched Dat.blockOf iblk0; rw [harr]; try rfl)

theorem before0_2_of {c : Dev nD} (dat : Dat τ (Elt F) Unit ℕ (UR sig nD τ) ℕ cfg0 c) (harr : dat.A 2 = V c (Pipeline.arrRef spec0 2))
    (hkeep : ∀ t, dat.after 2 t = iblk0 V c 2 t) (t : Fin cfg0.N) (d) : dat.before 2 t d = iblk0 V c 2 t :=
  (dat.before_in_eq_fetched 2 rfl (fun _ => rfl) (fun _ _ _ => rfl) (fun t => by rw [hkeep]; unfold Dat.blockOf iblk0; rw [harr]; try rfl) t d).trans
    (by unfold Dat.fetched Dat.blockOf iblk0; rw [harr]; try rfl)

/-! ## The rectangle the body reads and writes: the whole 512x512 buffer -/

abbrev r0_0 : Rect S512x512 := Rect.unit (s := S512x512) ![0, 0] S512x512.size inb_S512x512_S512x512_0_0

/-! ## What the body leaves in the output window's buffer -/

/-- The output's staging buffer after the body: its single store, of the payload over the three loads. -/
def out0_3 (x0 x1 x2 : Vec F S512x512 .f32) : Vec F S512x512 .bf16 :=
  View.canon [⟨r0_0, k0_pay1 (View.ld x0 r0_0) (View.ld x1 r0_0) (View.ld x2 r0_0)⟩]

/-- The one store is over the whole buffer, so every index of the buffer is in it. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-! ## The body's triple -/

set_option maxHeartbeats 1000000 in
/-- On whole staging memrefs, the three inputs' at read contents x0 x1 x2 and the output's at anything, the kernel
    body runs to a state with the inputs' as they were and the output's at out0_3 x0 x1 x2. -/
theorem sound_kernel0 (c : Dev nD) (E : Set ℕ) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .bf16) (harg5 : arg5.IsWhole)
    (x0 x1 x2 : Vec F S512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__sample_weight_kernel i arg2 harg2 arg3 harg3 arg4 harg4 arg5 harg5) K := by
  simp only [cc0__sample_weight_kernel_eq_skeleton]; unfold cc0__sample_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as V has them; after the body at t the inputs' buffers hold
    their blocks and the output's holds out0_3 of the three input blocks; the class-A invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the body is entered with at t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the inputs' memrefs hold their blocks, so the body's triple applies; the invariant and what is owed
    are passed through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K_R1Shared.lean ====
/-
  The tiled matrix product (the second kernel), what its control cases share.

  The kernel walks a 4 x 4 x 8 grid: point (i, j, k) sees rows 2048 i .. of x, rows 1024 j .. of the sampled weight,
  and the k-th tile of 512 of the 4096 contracted columns. It keeps a running total in a scratch buffer of its own:
  cleared where k = 0, increased at every point by the product of the two tiles, and where k = 7 written out with the
  bias row added. So the body has two conditions on the grid point, "k = 0" and "k = 7", and three cases are met:
  first (k = 0), middle (0 < k < 7), last (k = 7). Here: each window's block as the region finds it, the two conditions
  decided over the 128 points (point t has k = t mod 8), where the output window is written at all, and the names of the
  buffers the body is handed.
-/
import proofs.«159802_j18494129176930_2_alg».proof.Proof.Gen.Kernel.Launch
import proofs.«159802_j18494129176930_2_alg».proof.Proof.Gen.Kernel.Skeleton
import proofs.«159802_j18494129176930_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of x: the buffer the body is handed holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rows of the weight: likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row: likewise (its block index does not move while k runs, and it is fetched only where k = 0). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions -/

/-- "k = 0": the condition under which the body clears its running total. -/
abbrev firstK (i : grid1.Coords) : Prop := (Scalar.cmpi .ne (Scalar.extui (Scalar.cmpi .eq (BitVec.ofNat 32 (i 2).val) 0#32)) 0#32) = 1#1
theorem firstK_iff : ∀ t : Fin cfg1.N, firstK (grid1.coords t) ↔ t.val % 8 = 0 :=
  (by decide +kernel : ∀ t : Fin grid1.N, firstK (grid1.coords t) ↔ t.val % 8 = 0)

/-- "k = 7": the condition under which the body writes the output block. -/
abbrev lastK (i : grid1.Coords) : Prop := k1_cond2 i = 1#1
theorem lastK_iff : ∀ t : Fin cfg1.N, lastK (grid1.coords t) ↔ t.val % 8 = 7 :=
  (by decide +kernel : ∀ t : Fin grid1.N, lastK (grid1.coords t) ↔ t.val % 8 = 7)

/-! ## Where the windows are written -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last tile the body stores nothing into the output window, -/
theorem idle1_3 : ∀ t : Fin cfg1.N, ¬lastK (grid1.coords t) → cfg1.idle 3 (grid1.coords t) = true := by decide +kernel
/-- and its block is not written back there; -/
theorem noFlush1_3 : ∀ t : Fin cfg1.N, ¬lastK (grid1.coords t) → (cfg1.win 3).flush t = false := by decide +kernel
/-- on the last tile it is stored. -/
theorem live1_3 : ∀ t : Fin cfg1.N, lastK (grid1.coords t) → cfg1.idle 3 (grid1.coords t) = false := by decide +kernel

/-! ## The buffers the body is handed -/

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The running total's buffer, a whole scoped buffer of the kernel's own, -/
abbrev accM : Memref sig .tc .vmem S2048x1024 .f32 := Memref.whole cc1_scratch0
/-- as a view: what it holds is stated through it. -/
abbrev accV : View sig .tc .vmem S2048x1024 .f32 := accM.view
/-- One staging buffer of the output window, through which its contents are stated. -/
abbrev outV : View sig .tc .vmem S2048x1024 .f32 := (Memref.whole cc1_stg3_0 : Memref sig .tc .vmem S2048x1024 .f32).view

/-! ## The scoped buffers that are not this kernel's staging buffers -/

/-- The first kernel's eight staging buffers, each at some contents, beside `P` (which speaks of the running total's buffer). -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

theorem restWith_peel (c : Dev nD) (P : sProp 𝕄) : restWith c P ⊢ iprop(restWith (F := F) c iprop(emp) ∗ P) := by
  unfold restWith
  iintro ⟨H1, H2, H3, H4, H5, H6, H7, H8, HP⟩
  isplitr [HP]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  iexact HP

theorem restWith_fill (c : Dev nD) (P : sProp 𝕄) : iprop(restWith (F := F) c iprop(emp) ∗ P) ⊢ restWith c P := by
  unfold restWith
  iintro ⟨⟨H1, H2, H3, H4, H5, H6, H7, H8, -⟩, HP⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HP

/-- The region's plain invariant, with the running total's buffer as a memref owned at some contents. -/
theorem PhiA1_eq (c : Dev nD) :
    (Pipeline.ΦA spec1 c : sProp 𝕄) = iprop(restWith c iprop(∃ d, owns (c : Thread nD τ) accM fullShare d) ∗ (∃ r, prngReg c r)) := by
  unfold Pipeline.ΦA restWith; rw [scopedRest1_eq]; simp only [accM, owns_whole]; try rfl

end Cert.Kernel.R1

end
-- ==== Proof.K_R1RunFirst.lean ====
/-
  The tiled matrix product's body where k = 0: the running total is cleared, then increased by the product of the point's
  two tiles; the output window's buffer is not touched. The run of the body from the buffers it is handed; the pieces the
  running total's buffer ends with are found by the run itself.
-/
import proofs.«159802_j18494129176930_2_alg».proof.Proof.K_R1Shared

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole buffers where k = 0: the three inputs at their contents, the output window's at contents handed back
    untouched, the running total's at anything; it ends with the inputs as they were and the running total's buffer with
    the pieces `LS` written. -/
noncomputable def runFirst (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : firstK i) (hc1 : ¬lastK i)
    (x0 : Vec F S2048x512 .f32) (x1 : Vec F S1024x512 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__gemm_kernel i arg3 harg3 arg4 harg4 arg5 harg5 arg6 harg6 arg7 harg7) K } := by
  refine ⟨[], ?_, fun xi3 E K => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R1

end
-- ==== Proof.K_R1RunMid.lean ====
/-
  The tiled matrix product's body where 0 < k < 7: the running total, found at what the point before left, is increased by
  the product of the point's two tiles; the output window's buffer is not touched.
-/
import proofs.«159802_j18494129176930_2_alg».proof.Proof.K_R1RunFirst

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole buffers where 0 < k < 7: the inputs at their contents, the output window's at contents handed back
    untouched, the running total's at `xs`; it ends with the running total's buffer with the pieces `LS` written. -/
noncomputable def runMid (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬firstK i) (hc1 : ¬lastK i)
    (x0 : Vec F S2048x512 .f32) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__gemm_kernel i arg3 harg3 arg4 harg4 arg5 harg5 arg6 harg6 arg7 harg7) K } := by
  refine ⟨[], ?_, fun xi3 E K => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.Kernel.R1

end
-- ==== Proof.K_R1RunLast.lean ====
/-
  The tiled matrix product's body where k = 7: the running total is increased by the product of the last two tiles, and the
  total with the bias row added to every row is stored into the output window's buffer.
-/
import proofs.«159802_j18494129176930_2_alg».proof.Proof.K_R1RunMid

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body on whole buffers where k = 7: the inputs at their contents, the output window's at anything, the running
    total's at `xs`; it ends with the output window's buffer with the pieces `L3` written and the running total's with `LS`. -/
noncomputable def runLast (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬firstK i) (hc1 : lastK i)
    (x0 : Vec F S2048x512 .f32) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__gemm_kernel i arg3 harg3 arg4 harg4 arg5 harg5 arg6 harg6 arg7 harg7) K } := by
  refine ⟨?_, ?_, fun E K => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.R1

end
-- ==== Proof.K_R1.lean ====
/-
  The tiled matrix product (the second kernel): what its buffers hold point by point, and its body obligation.

  Point t of the 128 has k = t mod 8. Write acc t for what the running total's buffer holds after the body at t and
  out t for the output window's buffer. Where k = 0 the body leaves acc t = the product of the point's tiles added to the
  cleared total; elsewhere acc t is acc (t - 1) increased by the product of the point's tiles; where k = 7 also
  out t = acc t with the bias row added. `outsAt1` is that recursion over the runs' found pieces; `PhiS` is the region's
  invariant: before the first point the plain one, afterwards the running total's buffer at acc of the point before.
-/
import proofs.«159802_j18494129176930_2_alg».proof.Proof.K_R1RunLast

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point of the grid -/

abbrev firstAt (c : Dev nD) (t : Fin cfg1.N) (h0 : firstK (grid1.coords t)) (h1 : ¬lastK (grid1.coords t)) (x0 : Vec F S2048x512 .f32) (x1 : Vec F S1024x512 .bf16) (x2 : Vec F S1x1024 .f32) :=
  runFirst (F := F) c (grid1.coords t) (ms1_0 t) (hs1_0 t) (ms1_1 t) (hs1_1 t) (ms1_2 t) (hs1_2 t) (ms1_3 t) (hs1_3 t) accM (Memref.isWhole_whole _) h0 h1 x0 x1 x2
abbrev midAt (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) :=
  runMid (F := F) c (grid1.coords t) (ms1_0 t) (hs1_0 t) (ms1_1 t) (hs1_1 t) (ms1_2 t) (hs1_2 t) (ms1_3 t) (hs1_3 t) accM (Memref.isWhole_whole _) h0 h1 x0 x1 x2 xs
abbrev lastAt (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) :=
  runLast (F := F) c (grid1.coords t) (ms1_0 t) (hs1_0 t) (ms1_1 t) (hs1_1 t) (ms1_2 t) (hs1_2 t) (ms1_3 t) (hs1_3 t) accM (Memref.isWhole_whole _) h0 h1 x0 x1 x2 xs

/-! ## What each case leaves -/

/-- Where k = 0 the running total's pieces cover its buffer. -/
theorem accFirst_cover (c : Dev nD) (t : Fin cfg1.N) (h0 : firstK (grid1.coords t)) (h1 : ¬lastK (grid1.coords t)) (x0 : Vec F S2048x512 .f32) (x1 : Vec F S1024x512 .bf16) (x2 : Vec F S1x1024 .f32) (y : S2048x1024.Idx) :
    ∃ pc ∈ (firstAt c t h0 h1 x0 x1 x2).2.1, y ∈ pc.1.set :=
  View.cover_of_tiledL (firstAt c t h0 h1 x0 x1 x2).2.1 S2048x1024.size (by sl_kernel_rfl) y
/-- What the running total holds after a point with k = 0. -/
def accFirst (c : Dev nD) (t : Fin cfg1.N) (h0 : firstK (grid1.coords t)) (h1 : ¬lastK (grid1.coords t)) (x0 : Vec F S2048x512 .f32) (x1 : Vec F S1024x512 .bf16) (x2 : Vec F S1x1024 .f32) : Vec F S2048x1024 .f32 :=
  accV.read (Elt F) (accV.writes (Elt F) accV.junk (firstAt c t h0 h1 x0 x1 x2).2.1)
/-- The output window's buffer is not stored there: a placeholder nothing reads. -/
def outFirst (c : Dev nD) (t : Fin cfg1.N) (h0 : firstK (grid1.coords t)) (h1 : ¬lastK (grid1.coords t)) (x0 : Vec F S2048x512 .f32) (x1 : Vec F S1024x512 .bf16) (x2 : Vec F S1x1024 .f32) : Vec F S2048x1024 .f32 :=
  outV.read (Elt F) (outV.writes (Elt F) outV.junk (firstAt c t h0 h1 x0 x1 x2).1)

theorem accMid_cover (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) (y : S2048x1024.Idx) :
    ∃ pc ∈ (midAt c t h0 h1 x0 x1 x2 xs).2.1, y ∈ pc.1.set :=
  View.cover_of_tiledL (midAt c t h0 h1 x0 x1 x2 xs).2.1 S2048x1024.size (by sl_kernel_rfl) y
def accMid (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) : Vec F S2048x1024 .f32 :=
  accV.read (Elt F) (accV.writes (Elt F) accV.junk (midAt c t h0 h1 x0 x1 x2 xs).2.1)
def outMid (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) : Vec F S2048x1024 .f32 :=
  outV.read (Elt F) (outV.writes (Elt F) outV.junk (midAt c t h0 h1 x0 x1 x2 xs).1)

theorem accLast_cover (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) (y : S2048x1024.Idx) :
    ∃ pc ∈ (lastAt c t h0 h1 x0 x1 x2 xs).2.1, y ∈ pc.1.set :=
  View.cover_of_tiledL (lastAt c t h0 h1 x0 x1 x2 xs).2.1 S2048x1024.size (by sl_kernel_rfl) y
theorem outLast_cover (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) (y : S2048x1024.Idx) :
    ∃ pc ∈ (lastAt c t h0 h1 x0 x1 x2 xs).1, y ∈ pc.1.set :=
  View.cover_of_tiledL (lastAt c t h0 h1 x0 x1 x2 xs).1 S2048x1024.size (by sl_kernel_rfl) y
def accLast (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) : Vec F S2048x1024 .f32 :=
  accV.read (Elt F) (accV.writes (Elt F) accV.junk (lastAt c t h0 h1 x0 x1 x2 xs).2.1)
/-- What the output window's buffer holds after a point with k = 7. -/
def outLast (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) : Vec F S2048x1024 .f32 :=
  outV.read (Elt F) (outV.writes (Elt F) outV.junk (lastAt c t h0 h1 x0 x1 x2 xs).1)

/-! ## Point by point -/

/-- (out t, acc t): the output window's buffer and the running total after the body at position `n`. -/
def outsAt1 (c : Dev nD) : (n : ℕ) → n < cfg1.N → Vec F S2048x1024 .f32 × Vec F S2048x1024 .f32
  | 0, hn =>
    (outFirst c ⟨0, hn⟩ ((firstK_iff ⟨0, hn⟩).mpr (Nat.zero_mod _)) (fun h => (fun h => by (try dsimp only at h); omega) ((lastK_iff ⟨0, hn⟩).mp h)) (iblk1 V c 0 ⟨0, hn⟩) (iblk1 V c 1 ⟨0, hn⟩) (iblk1 V c 2 ⟨0, hn⟩),
     accFirst c ⟨0, hn⟩ ((firstK_iff ⟨0, hn⟩).mpr (Nat.zero_mod _)) (fun h => (fun h => by (try dsimp only at h); omega) ((lastK_iff ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (outFirst c ⟨n + 1, hn⟩ ((firstK_iff ⟨n + 1, hn⟩).mpr h0) (fun h => h1 ((lastK_iff ⟨n + 1, hn⟩).mp h)) (iblk1 V c 0 ⟨n + 1, hn⟩) (iblk1 V c 1 ⟨n + 1, hn⟩) (iblk1 V c 2 ⟨n + 1, hn⟩),
         accFirst c ⟨n + 1, hn⟩ ((firstK_iff ⟨n + 1, hn⟩).mpr h0) (fun h => h1 ((lastK_iff ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (outLast c ⟨n + 1, hn⟩ (fun h => h0 ((firstK_iff ⟨n + 1, hn⟩).mp h)) ((lastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         accLast c ⟨n + 1, hn⟩ (fun h => h0 ((firstK_iff ⟨n + 1, hn⟩).mp h)) ((lastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outMid c ⟨n + 1, hn⟩ (fun h => h0 ((firstK_iff ⟨n + 1, hn⟩).mp h)) (fun h => h1 ((lastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         accMid c ⟨n + 1, hn⟩ (fun h => h0 ((firstK_iff ⟨n + 1, hn⟩).mp h)) (fun h => h1 ((lastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_first (c : Dev nD) (t : Fin cfg1.N) (h0 : t.val % 8 = 0) (h1 : ¬t.val % 8 = 7) :
    outsAt1 V c t.val t.isLt =
      (outFirst c t ((firstK_iff t).mpr h0) (fun h => h1 ((lastK_iff t).mp h)) (iblk1 V c 0 t) (iblk1 V c 1 t) (iblk1 V c 2 t),
       accFirst c t ((firstK_iff t).mpr h0) (fun h => h1 ((lastK_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: over what the point before left. -/
theorem outsAt1_mid (c : Dev nD) (t : Fin cfg1.N) (h0 : ¬t.val % 8 = 0) (h1 : ¬t.val % 8 = 7) :
    outsAt1 V c t.val t.isLt =
      (outMid c t (fun h => h0 ((firstK_iff t).mp h)) (fun h => h1 ((lastK_iff t).mp h)) (iblk1 V c 0 t) (iblk1 V c 1 t) (iblk1 V c 2 t) (outsAt1 V c (t.val - 1) (Nat.lt_of_le_of_lt (Nat.sub_le _ _) t.isLt)).2,
       accMid c t (fun h => h0 ((firstK_iff t).mp h)) (fun h => h1 ((lastK_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: over what the point before left. -/
theorem outsAt1_last (c : Dev nD) (t : Fin cfg1.N) (h0 : ¬t.val % 8 = 0) (h1 : t.val % 8 = 7) :
    outsAt1 V c t.val t.isLt =
      (outLast c t (fun h => h0 ((firstK_iff t).mp h)) ((lastK_iff t).mpr h1) (iblk1 V c 0 t) (iblk1 V c 1 t) (iblk1 V c 2 t) (outsAt1 V c (t.val - 1) (Nat.lt_of_le_of_lt (Nat.sub_le _ _) t.isLt)).2,
       accLast c t (fun h => h0 ((firstK_iff t).mp h)) ((lastK_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the plain invariant before the first point; afterwards the running total's buffer at what the
    point before left, the other scoped buffers at anything, the generator register at some state. -/
def PhiS (c : Dev nD) : (n : ℕ) → n ≤ cfg1.N → sProp 𝕄
  | 0, _ => Pipeline.ΦA spec1 c
  | n + 1, hn => iprop(restWith c (owns (c : Thread nD τ) accM fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) accM fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) accM fullShare ((outsAt1 V c (n - 1) (by omega)).2)) ∗ (∃ r, prngReg c r)) := by
  cases n with
  | zero => exact absurd rfl hz
  | succ n => rfl

/-! ## The proof data -/

/-- The second pipeline's proof data on core `c`: the arrays as the region finds them; after the body at point `t` each
    input's buffer at its block, the output's at out t; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]

set_option maxHeartbeats 4800000 in
/-- The body at any point: the inputs' buffers hold their blocks; the point's k says which case it is; the invariant hands
    the body the running total at what the point before left (at anything at the very first point) and takes it back at
    this point's; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idle1_3 t (fun h => h1 ((lastK_iff t).mp h))) (noFlush1_3 t (fun h => h1 ((lastK_iff t).mp h)))]
    rw [outsAt1_first V c t h0 h1]
    unfold accFirst; (try dsimp only)
    by_cases hz : t.val = 0
    · rw [PhiS_castSucc V c t, PhiS_zero V c _ _ hz, PhiA1_eq]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((firstAt c t ((firstK_iff t).mpr h0) (fun h => h1 ((lastK_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accFirst_cover c t _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((firstAt c t ((firstK_iff t).mpr h0) (fun h => h1 ((lastK_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accFirst_cover c t _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [live1_3 t ((lastK_iff t).mpr h1)], after1_3]
      rw [outsAt1_last V c t h0 h1]
      unfold outLast accLast; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((lastAt c t (fun h => h0 ((firstK_iff t).mp h)) ((lastK_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accLast_cover c t _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c t _ _ _ _ _ _)
    · rw [Dat.leavesExact_idle (dat1 V c) 3 t (idle1_3 t (fun h => h1 ((lastK_iff t).mp h))) (noFlush1_3 t (fun h => h1 ((lastK_iff t).mp h)))]
      rw [outsAt1_mid V c t h0 h1]
      unfold accMid; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((midAt c t (fun h => h0 ((firstK_iff t).mp h)) (fun h => h1 ((lastK_iff t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accMid_cover c t _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: what the running total holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HR, Hg⟩
  ihave HR' := (restWith_peel c _) $$ HR
  icases HR' with ⟨Hoth, HS⟩
  isplitl [HS Hoth]
  · iapply (restWith_fill c _)
    isplitl [Hoth]; · iexact Hoth
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.Kernel.R1

end
-- ==== Proof.K_Whole.lean ====
/-
  The whole program as a run of five items: the weight-sampling kernel, three stretches of host operations that compute
  the bias row, and the tiled matrix product.

  `W0 .. W5` are core `c`'s buffer contents at the six boundaries: the launch memory; after the first kernel (its output
  array at what its write-backs leave, everything else as before); after each host stretch; after the second kernel.
  Every weakly fair execution terminates with each unscoped buffer at `W5`: that one run gives both the frame claim (no
  item writes an argument) and the result array (`main_v13` at what the second kernel's write-backs leave).
-/
import proofs.«159802_j18494129176930_2_alg».proof.Proof.K_R0
import proofs.«159802_j18494129176930_2_alg».proof.Proof.K_R1
import proofs.«159802_j18494129176930_2_alg».proof.Proof.Gen.Kernel.Regions

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After the first kernel: its arrays at what the pipeline leaves, every other buffer as entered. -/
def W1 (c : Dev nD) : Valuation τ sig (Elt F) :=
  Pipeline.withArrays spec0 c (W0 m c) fun w => (R0.dat0 (U0 m) c).arrAt w cfg0.N
theorem W1_arr (c : Dev nD) (w : Fin cfg0.W) :
    W1 m c (Proc.devRef .tc (Pipeline.arrRef spec0 w)) = (R0.dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (R0.dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After each of the three host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev U4 : (c : Dev nD) → (b : Ref sig .tc) → Buf (Elt F) ((c : Thread nD τ).loc b) := fun c b => W4 m c b
/-- After the second kernel. -/
def W5 (c : Dev nD) : Valuation τ sig (Elt F) :=
  Pipeline.withArrays spec1 c (W4 m c) fun w => (R1.dat1 (U4 m) c).arrAt w cfg1.N
theorem W5_arr (c : Dev nD) (w : Fin cfg1.W) :
    W5 m c (Proc.devRef .tc (Pipeline.arrRef spec1 w)) = (R1.dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (R1.dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)

/-- A buffer no host stretch writes passes through the three of them. -/
theorem W4_of (c : Dev nD) (r : Ref sig .tc) (h1 : r ∉ hostOps1_W) (h2 : r ∉ hostOps1_1_W) (h3 : r ∉ hostOps1_2_W) :
    W4 m c (Proc.devRef .tc r) = W1 m c (Proc.devRef .tc r) :=
  (StableHlo.after_of_writes_sub hostOps1_2 _ hostOps1_2_writes h3).trans
    ((StableHlo.after_of_writes_sub hostOps1_1 _ hostOps1_1_writes h2).trans
      (StableHlo.after_of_writes_sub hostOps1 _ hostOps1_writes h1))

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (U0 m) c
  | ⟨1, _⟩ => fun c => R1.dat1 (U4 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The two kernels as segments -/

set_option backward.isDefEq.respectTransparency.types false in
/-- The weight-sampling kernel: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tiled matrix product: entered from every unscoped buffer at `W4`, left at `W5`. Its invariant is the plain one
    before the first point and gives the plain one back after the last (`R1.hin1`, `R1.hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (R1.hin1 (U4 m) c)
    unfold Pipeline.ΦA
    iintro ⟨Hp, -, Hr⟩
    isplitl [Hr]; · iexact Hr
    iexact Hp
  hout c := by
    rw [Pipeline.ownSems0_none]
    refine Idealize.SL.BI.BIBase.Entails.trans (R1.hout1 (U4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U4 m c) (U5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]

set_option backward.isDefEq.respectTransparency.types false in
/-- THE RUN: from any memory with zero counters every weakly fair execution of the program terminates, nothing faulting,
    and every final state holds each unscoped buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Whole

end
-- ==== Proof.K_Claims.lean ====
/-
  What the run says of the arguments and of the result.

  No item of the program writes an argument array: the two kernels read them through input windows (or not at all), and
  each host operation writes only its own result buffer. So at the last boundary every argument holds its launch
  contents — the frame claim — and the result buffer holds what the second kernel's write-backs leave.
-/
import proofs.«159802_j18494129176930_2_alg».proof.Proof.K_Whole

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each argument, walked back through the boundaries to the launch memory -/

theorem W5_main_arg0 (c : Dev nD) : W5 m c (Proc.devRef .tc main_arg0) = m ((c : Thread nD τ).loc main_arg0) :=
  (W5_arr m c 0).trans <| (((R1.dat1 (U4 m) c).arrAt_in 0 rfl _).trans (R1.A_eq1 (U4 m) c 0)).trans <|
    (W4_of m c main_arg0 (by decide) (by decide) (by decide)).trans <| (W1_of_ne m c main_arg0 (by decide)).trans rfl
theorem W5_main_arg1 (c : Dev nD) : W5 m c (Proc.devRef .tc main_arg1) = m ((c : Thread nD τ).loc main_arg1) :=
  (W5_of_ne m c main_arg1 (by decide)).trans <| (W4_of m c main_arg1 (by decide) (by decide) (by decide)).trans <|
    (W1_arr m c 0).trans <| (((R0.dat0 (U0 m) c).arrAt_in 0 rfl _).trans (R0.A_eq0 (U0 m) c 0)).trans rfl
theorem W5_main_arg2 (c : Dev nD) : W5 m c (Proc.devRef .tc main_arg2) = m ((c : Thread nD τ).loc main_arg2) :=
  (W5_of_ne m c main_arg2 (by decide)).trans <| (W4_of m c main_arg2 (by decide) (by decide) (by decide)).trans <|
    (W1_arr m c 1).trans <| (((R0.dat0 (U0 m) c).arrAt_in 1 rfl _).trans (R0.A_eq0 (U0 m) c 1)).trans rfl
theorem W5_main_arg3 (c : Dev nD) : W5 m c (Proc.devRef .tc main_arg3) = m ((c : Thread nD τ).loc main_arg3) :=
  (W5_of_ne m c main_arg3 (by decide)).trans <| (W4_of m c main_arg3 (by decide) (by decide) (by decide)).trans <|
    (W1_of_ne m c main_arg3 (by decide)).trans rfl
theorem W5_main_arg4 (c : Dev nD) : W5 m c (Proc.devRef .tc main_arg4) = m ((c : Thread nD τ).loc main_arg4) :=
  (W5_of_ne m c main_arg4 (by decide)).trans <| (W4_of m c main_arg4 (by decide) (by decide) (by decide)).trans <|
    (W1_of_ne m c main_arg4 (by decide)).trans rfl
theorem W5_main_arg5 (c : Dev nD) : W5 m c (Proc.devRef .tc main_arg5) = m ((c : Thread nD τ).loc main_arg5) :=
  (W5_of_ne m c main_arg5 (by decide)).trans <| (W4_of m c main_arg5 (by decide) (by decide) (by decide)).trans <|
    (W1_arr m c 2).trans <| (((R0.dat0 (U0 m) c).arrAt_in 2 rfl _).trans (R0.A_eq0 (U0 m) c 2)).trans rfl
theorem W5_main_arg6 (c : Dev nD) : W5 m c (Proc.devRef .tc main_arg6) = m ((c : Thread nD τ).loc main_arg6) :=
  (W5_of_ne m c main_arg6 (by decide)).trans <| (W4_of m c main_arg6 (by decide) (by decide) (by decide)).trans <|
    (W1_of_ne m c main_arg6 (by decide)).trans rfl

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c)⟩) (run_all m ρ)

/-- THE RESULT: the same run, with the result buffer at what the second kernel's write-backs leave. -/
theorem result : θ_run defs (onTc (τ := τ) (main (F := F))) ⟨m, fun _ => 0, ρ⟩ (fun r => ∀ c : Dev nD,
      r.2.mem ((c.tc : Thread nD τ).loc main_v13) = (R1.dat1 (U4 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (W5_arr m c 3),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c)⟩) (run_all m ρ)

end Cert.Kernel.Whole

end
-- ==== Proof.KI_R0.lean ====
/- REGION 0 (pallas_call 0, the pointwise kernel that samples the weight) at a PARAMETER V: the TensorCore's buffer
   contents when the region is entered. For each of the four windows (inputs 0, 1, 2; output 3) the block the window
   shows at a grid point; what the body leaves in the output's staging buffer as a function of the three input blocks;
   the body's triple; the pipeline's proof data; and the body obligation at every grid point. Everything is generic in
   the float instance. -/
import proofs.«159802_j18494129176930_2_alg».proof.Proof.Gen.KernelIdeal.Launch
import proofs.«159802_j18494129176930_2_alg».proof.Proof.Gen.KernelIdeal.Skeleton
import proofs.«159802_j18494129176930_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents at the region's entry
variable (V : (c : Dev nD) → (b : Ref sig .tc) → Buf (Elt F) ((c : Thread nD τ).loc b))

/-! ## The blocks the windows show -/

/-- The block of window w at grid point t: the window's rectangle at t read off the window's array as V has it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window whose block the body leaves untouched (hkeep) over an array that is V's (harr) shows, in its
    current staging buffer, its block at t -- whether the pipeline fetched at t or the block index stood still.
    The three inputs are uncut and never idle, so the side conditions are definitional. -/
theorem before0_0_of {c : Dev nD} (dat : Dat τ (Elt F) Unit ℕ (UR sig nD τ) ℕ cfg0 c) (harr : dat.A 0 = V c (Pipeline.arrRef spec0 0))
    (hkeep : ∀ t, dat.after 0 t = iblk0 V c 0 t) (t : Fin cfg0.N) (d) : dat.before 0 t d = iblk0 V c 0 t :=
  (dat.before_in_eq_fetched 0 rfl (fun _ => rfl) (fun _ _ _ => rfl) (fun t => by rw [hkeep]; unfold Dat.blockOf iblk0; rw [harr]; try rfl) t d).trans
    (by unfold Dat.fetched Dat.blockOf iblk0; rw [harr]; try rfl)

theorem before0_1_of {c : Dev nD} (dat : Dat τ (Elt F) Unit ℕ (UR sig nD τ) ℕ cfg0 c) (harr : dat.A 1 = V c (Pipeline.arrRef spec0 1))
    (hkeep : ∀ t, dat.after 1 t = iblk0 V c 1 t) (t : Fin cfg0.N) (d) : dat.before 1 t d = iblk0 V c 1 t :=
  (dat.before_in_eq_fetched 1 rfl (fun _ => rfl) (fun _ _ _ => rfl) (fun t => by rw [hkeep]; unfold Dat.blockOf iblk0; rw [harr]; try rfl) t d).trans
    (by unfold Dat.fetched Dat.blockOf iblk0; rw [harr]; try rfl)

theorem before0_2_of {c : Dev nD} (dat : Dat τ (Elt F) Unit ℕ (UR sig nD τ) ℕ cfg0 c) (harr : dat.A 2 = V c (Pipeline.arrRef spec0 2))
    (hkeep : ∀ t, dat.after 2 t = iblk0 V c 2 t) (t : Fin cfg0.N) (d) : dat.before 2 t d = iblk0 V c 2 t :=
  (dat.before_in_eq_fetched 2 rfl (fun _ => rfl) (fun _ _ _ => rfl) (fun t => by rw [hkeep]; unfold Dat.blockOf iblk0; rw [harr]; try rfl) t d).trans
    (by unfold Dat.fetched Dat.blockOf iblk0; rw [harr]; try rfl)

/-! ## The rectangle the body reads and writes: the whole 512x512 buffer -/

abbrev r0_0 : Rect S512x512 := Rect.unit (s := S512x512) ![0, 0] S512x512.size inb_S512x512_S512x512_0_0

/-! ## What the body leaves in the output window's buffer -/

/-- The output's staging buffer after the body: its single store, of the payload over the three loads. -/
def out0_3 (x0 x1 x2 : Vec F S512x512 .f32) : Vec F S512x512 .bf16 :=
  View.canon [⟨r0_0, k0_pay1 (View.ld x0 r0_0) (View.ld x1 r0_0) (View.ld x2 r0_0)⟩]

/-- The one store is over the whole buffer, so every index of the buffer is in it. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-! ## The body's triple -/

set_option maxHeartbeats 1000000 in
/-- On whole staging memrefs, the three inputs' at read contents x0 x1 x2 and the output's at anything, the kernel
    body runs to a state with the inputs' as they were and the output's at out0_3 x0 x1 x2. -/
theorem sound_kernel0 (c : Dev nD) (E : Set ℕ) (i : grid0.Coords)
    (arg2 : Memref sig .tc .vmem S512x512 .f32) (harg2 : arg2.IsWhole) (arg3 : Memref sig .tc .vmem S512x512 .f32) (harg3 : arg3.IsWhole)
    (arg4 : Memref sig .tc .vmem S512x512 .f32) (harg4 : arg4.IsWhole) (arg5 : Memref sig .tc .vmem S512x512 .bf16) (harg5 : arg5.IsWhole)
    (x0 x1 x2 : Vec F S512x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__sample_weight_kernel i arg2 harg2 arg3 harg3 arg4 harg4 arg5 harg5) K := by
  simp only [cc0__sample_weight_kernel_eq_skeleton]; unfold cc0__sample_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core c: the arrays as V has them; after the body at t the inputs' buffers hold
    their blocks and the output's holds out0_3 of the three input blocks; the class-A invariant; full shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a grid point -/

/-- What the body is entered with at t, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the inputs' memrefs hold their blocks, so the body's triple applies; the invariant and what is owed
    are passed through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI_R1Shared.lean ====
/-
  The tiled matrix product (the second kernel), what its control cases share.

  The kernel walks a 4 x 4 x 8 grid: point (i, j, k) sees rows 2048 i .. of x, rows 1024 j .. of the sampled weight,
  and the k-th tile of 512 of the 4096 contracted columns. It keeps a running total in a scratch buffer of its own:
  cleared where k = 0, increased at every point by the product of the two tiles, and where k = 7 written out with the
  bias row added. So the body has two conditions on the grid point, "k = 0" and "k = 7", and three cases are met:
  first (k = 0), middle (0 < k < 7), last (k = 7). Here: each window's block as the region finds it, the two conditions
  decided over the 128 points (point t has k = t mod 8), where the output window is written at all, and the names of the
  buffers the body is handed.
-/
import proofs.«159802_j18494129176930_2_alg».proof.Proof.Gen.KernelIdeal.Launch
import proofs.«159802_j18494129176930_2_alg».proof.Proof.Gen.KernelIdeal.Skeleton
import proofs.«159802_j18494129176930_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rows of x: the buffer the body is handed holds the point's block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The rows of the weight: likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row: likewise (its block index does not move while k runs, and it is fetched only where k = 0). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The two conditions -/

/-- "k = 0": the condition under which the body clears its running total. -/
abbrev firstK (i : grid1.Coords) : Prop := (Scalar.cmpi .ne (Scalar.extui (Scalar.cmpi .eq (BitVec.ofNat 32 (i 2).val) 0#32)) 0#32) = 1#1
theorem firstK_iff : ∀ t : Fin cfg1.N, firstK (grid1.coords t) ↔ t.val % 8 = 0 :=
  (by decide +kernel : ∀ t : Fin grid1.N, firstK (grid1.coords t) ↔ t.val % 8 = 0)

/-- "k = 7": the condition under which the body writes the output block. -/
abbrev lastK (i : grid1.Coords) : Prop := k1_cond2 i = 1#1
theorem lastK_iff : ∀ t : Fin cfg1.N, lastK (grid1.coords t) ↔ t.val % 8 = 7 :=
  (by decide +kernel : ∀ t : Fin grid1.N, lastK (grid1.coords t) ↔ t.val % 8 = 7)

/-! ## Where the windows are written -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
/-- Off the last tile the body stores nothing into the output window, -/
theorem idle1_3 : ∀ t : Fin cfg1.N, ¬lastK (grid1.coords t) → cfg1.idle 3 (grid1.coords t) = true := by decide +kernel
/-- and its block is not written back there; -/
theorem noFlush1_3 : ∀ t : Fin cfg1.N, ¬lastK (grid1.coords t) → (cfg1.win 3).flush t = false := by decide +kernel
/-- on the last tile it is stored. -/
theorem live1_3 : ∀ t : Fin cfg1.N, lastK (grid1.coords t) → cfg1.idle 3 (grid1.coords t) = false := by decide +kernel

/-! ## The buffers the body is handed -/

abbrev ms1_0 (t : Fin cfg1.N) : Memref sig .tc .vmem S2048x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The running total's buffer, a whole scoped buffer of the kernel's own, -/
abbrev accM : Memref sig .tc .vmem S2048x1024 .f32 := Memref.whole cc1_scratch0
/-- as a view: what it holds is stated through it. -/
abbrev accV : View sig .tc .vmem S2048x1024 .f32 := accM.view
/-- One staging buffer of the output window, through which its contents are stated. -/
abbrev outV : View sig .tc .vmem S2048x1024 .f32 := (Memref.whole cc1_stg3_0 : Memref sig .tc .vmem S2048x1024 .f32).view

/-! ## The scoped buffers that are not this kernel's staging buffers -/

/-- The first kernel's eight staging buffers, each at some contents, beside `P` (which speaks of the running total's buffer). -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P)

theorem restWith_peel (c : Dev nD) (P : sProp 𝕄) : restWith c P ⊢ iprop(restWith (F := F) c iprop(emp) ∗ P) := by
  unfold restWith
  iintro ⟨H1, H2, H3, H4, H5, H6, H7, H8, HP⟩
  isplitr [HP]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  iexact HP

theorem restWith_fill (c : Dev nD) (P : sProp 𝕄) : iprop(restWith (F := F) c iprop(emp) ∗ P) ⊢ restWith c P := by
  unfold restWith
  iintro ⟨⟨H1, H2, H3, H4, H5, H6, H7, H8, -⟩, HP⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HP

/-- The region's plain invariant, with the running total's buffer as a memref owned at some contents. -/
theorem PhiA1_eq (c : Dev nD) :
    (Pipeline.ΦA spec1 c : sProp 𝕄) = iprop(restWith c iprop(∃ d, owns (c : Thread nD τ) accM fullShare d) ∗ (∃ r, prngReg c r)) := by
  unfold Pipeline.ΦA restWith; rw [scopedRest1_eq]; simp only [accM, owns_whole]; try rfl

end Cert.KernelIdeal.R1

end
-- ==== Proof.KI_R1RunFirst.lean ====
/-
  The tiled matrix product's body where k = 0: the running total is cleared, then increased by the product of the point's
  two tiles; the output window's buffer is not touched. The run of the body from the buffers it is handed; the pieces the
  running total's buffer ends with are found by the run itself.
-/
import proofs.«159802_j18494129176930_2_alg».proof.Proof.KI_R1Shared

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole buffers where k = 0: the three inputs at their contents, the output window's at contents handed back
    untouched, the running total's at anything; it ends with the inputs as they were and the running total's buffer with
    the pieces `LS` written. -/
noncomputable def runFirst (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : firstK i) (hc1 : ¬lastK i)
    (x0 : Vec F S2048x512 .f32) (x1 : Vec F S1024x512 .bf16) (x2 : Vec F S1x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__gemm_kernel i arg3 harg3 arg4 harg4 arg5 harg5 arg6 harg6 arg7 harg7) K } := by
  refine ⟨[], ?_, fun xi3 E K => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R1

end
-- ==== Proof.KI_R1RunMid.lean ====
/-
  The tiled matrix product's body where 0 < k < 7: the running total, found at what the point before left, is increased by
  the product of the point's two tiles; the output window's buffer is not touched.
-/
import proofs.«159802_j18494129176930_2_alg».proof.Proof.KI_R1RunFirst

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole buffers where 0 < k < 7: the inputs at their contents, the output window's at contents handed back
    untouched, the running total's at `xs`; it ends with the running total's buffer with the pieces `LS` written. -/
noncomputable def runMid (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬firstK i) (hc1 : ¬lastK i)
    (x0 : Vec F S2048x512 .f32) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc1__gemm_kernel i arg3 harg3 arg4 harg4 arg5 harg5 arg6 harg6 arg7 harg7) K } := by
  refine ⟨[], ?_, fun xi3 E K => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

end Cert.KernelIdeal.R1

end
-- ==== Proof.KI_R1RunLast.lean ====
/-
  The tiled matrix product's body where k = 7: the running total is increased by the product of the last two tiles, and the
  total with the bias row added to every row is stored into the output window's buffer.
-/
import proofs.«159802_j18494129176930_2_alg».proof.Proof.KI_R1RunMid

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body on whole buffers where k = 7: the inputs at their contents, the output window's at anything, the running
    total's at `xs`; it ends with the output window's buffer with the pieces `L3` written and the running total's with `LS`. -/
noncomputable def runLast (c : Dev nD) (i : grid1.Coords) (arg3 : Memref sig .tc .vmem S2048x512 .f32) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬firstK i) (hc1 : lastK i)
    (x0 : Vec F S2048x512 .f32) (x1 : Vec F S1024x512 .bf16) (x2 : Vec F S1x1024 .f32) (xs : Vec F S2048x1024 .f32) :
    Σ' (L3 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc1__gemm_kernel i arg3 harg3 arg4 harg4 arg5 harg5 arg6 harg6 arg7 harg7) K } := by
  refine ⟨?_, ?_, fun E K => ?run⟩
  case run =>
    simp only [cc1__gemm_kernel_eq_skeleton]; unfold cc1__gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.R1

end
-- ==== Proof.KI_R1.lean ====
/-
  The tiled matrix product (the second kernel): what its buffers hold point by point, and its body obligation.

  Point t of the 128 has k = t mod 8. Write acc t for what the running total's buffer holds after the body at t and
  out t for the output window's buffer. Where k = 0 the body leaves acc t = the product of the point's tiles added to the
  cleared total; elsewhere acc t is acc (t - 1) increased by the product of the point's tiles; where k = 7 also
  out t = acc t with the bias row added. `outsAt1` is that recursion over the runs' found pieces; `PhiS` is the region's
  invariant: before the first point the plain one, afterwards the running total's buffer at acc of the point before.
-/
import proofs.«159802_j18494129176930_2_alg».proof.Proof.KI_R1RunLast

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a point of the grid -/

abbrev firstAt (c : Dev nD) (t : Fin cfg1.N) (h0 : firstK (grid1.coords t)) (h1 : ¬lastK (grid1.coords t)) (x0 : Vec F S2048x512 .f32) (x1 : Vec F S1024x512 .bf16) (x2 : Vec F S1x1024 .f32) :=
  runFirst (F := F) c (grid1.coords t) (ms1_0 t) (hs1_0 t) (ms1_1 t) (hs1_1 t) (ms1_2 t) (hs1_2 t) (ms1_3 t) (hs1_3 t) accM (Memref.isWhole_whole _) h0 h1 x0 x1 x2
abbrev midAt (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) :=
  runMid (F := F) c (grid1.coords t) (ms1_0 t) (hs1_0 t) (ms1_1 t) (hs1_1 t) (ms1_2 t) (hs1_2 t) (ms1_3 t) (hs1_3 t) accM (Memref.isWhole_whole _) h0 h1 x0 x1 x2 xs
abbrev lastAt (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) :=
  runLast (F := F) c (grid1.coords t) (ms1_0 t) (hs1_0 t) (ms1_1 t) (hs1_1 t) (ms1_2 t) (hs1_2 t) (ms1_3 t) (hs1_3 t) accM (Memref.isWhole_whole _) h0 h1 x0 x1 x2 xs

/-! ## What each case leaves -/

/-- Where k = 0 the running total's pieces cover its buffer. -/
theorem accFirst_cover (c : Dev nD) (t : Fin cfg1.N) (h0 : firstK (grid1.coords t)) (h1 : ¬lastK (grid1.coords t)) (x0 : Vec F S2048x512 .f32) (x1 : Vec F S1024x512 .bf16) (x2 : Vec F S1x1024 .f32) (y : S2048x1024.Idx) :
    ∃ pc ∈ (firstAt c t h0 h1 x0 x1 x2).2.1, y ∈ pc.1.set :=
  View.cover_of_tiledL (firstAt c t h0 h1 x0 x1 x2).2.1 S2048x1024.size (by sl_kernel_rfl) y
/-- What the running total holds after a point with k = 0. -/
def accFirst (c : Dev nD) (t : Fin cfg1.N) (h0 : firstK (grid1.coords t)) (h1 : ¬lastK (grid1.coords t)) (x0 : Vec F S2048x512 .f32) (x1 : Vec F S1024x512 .bf16) (x2 : Vec F S1x1024 .f32) : Vec F S2048x1024 .f32 :=
  accV.read (Elt F) (accV.writes (Elt F) accV.junk (firstAt c t h0 h1 x0 x1 x2).2.1)
/-- The output window's buffer is not stored there: a placeholder nothing reads. -/
def outFirst (c : Dev nD) (t : Fin cfg1.N) (h0 : firstK (grid1.coords t)) (h1 : ¬lastK (grid1.coords t)) (x0 : Vec F S2048x512 .f32) (x1 : Vec F S1024x512 .bf16) (x2 : Vec F S1x1024 .f32) : Vec F S2048x1024 .f32 :=
  outV.read (Elt F) (outV.writes (Elt F) outV.junk (firstAt c t h0 h1 x0 x1 x2).1)

theorem accMid_cover (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) (y : S2048x1024.Idx) :
    ∃ pc ∈ (midAt c t h0 h1 x0 x1 x2 xs).2.1, y ∈ pc.1.set :=
  View.cover_of_tiledL (midAt c t h0 h1 x0 x1 x2 xs).2.1 S2048x1024.size (by sl_kernel_rfl) y
def accMid (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) : Vec F S2048x1024 .f32 :=
  accV.read (Elt F) (accV.writes (Elt F) accV.junk (midAt c t h0 h1 x0 x1 x2 xs).2.1)
def outMid (c : Dev nD) (t : Fin cfg1.N) (h0 : ¬firstK (grid1.coords t)) (h1 : ¬lastK (grid1.coords t)) (x0 : Vec F S2048x512 .f32) (x1 : Vec F S1024x512 .bf16) (x2 : Vec F S1x1024 .f32) (xs : Vec F S2048x1024 .f32) : Vec F S2048x1024 .f32 :=
  outV.read (Elt F) (outV.writes (Elt F) outV.junk (midAt c t h0 h1 x0 x1 x2 xs).1)

theorem accLast_cover (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) (y : S2048x1024.Idx) :
    ∃ pc ∈ (lastAt c t h0 h1 x0 x1 x2 xs).2.1, y ∈ pc.1.set :=
  View.cover_of_tiledL (lastAt c t h0 h1 x0 x1 x2 xs).2.1 S2048x1024.size (by sl_kernel_rfl) y
theorem outLast_cover (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) (y : S2048x1024.Idx) :
    ∃ pc ∈ (lastAt c t h0 h1 x0 x1 x2 xs).1, y ∈ pc.1.set :=
  View.cover_of_tiledL (lastAt c t h0 h1 x0 x1 x2 xs).1 S2048x1024.size (by sl_kernel_rfl) y
def accLast (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) : Vec F S2048x1024 .f32 :=
  accV.read (Elt F) (accV.writes (Elt F) accV.junk (lastAt c t h0 h1 x0 x1 x2 xs).2.1)
/-- What the output window's buffer holds after a point with k = 7. -/
def outLast (c : Dev nD) (t : Fin cfg1.N) (h0 : ¬firstK (grid1.coords t)) (h1 : lastK (grid1.coords t)) (x0 : Vec F S2048x512 .f32) (x1 : Vec F S1024x512 .bf16) (x2 : Vec F S1x1024 .f32) (xs : Vec F S2048x1024 .f32) : Vec F S2048x1024 .f32 :=
  outV.read (Elt F) (outV.writes (Elt F) outV.junk (lastAt c t h0 h1 x0 x1 x2 xs).1)

/-! ## Point by point -/

/-- (out t, acc t): the output window's buffer and the running total after the body at position `n`. -/
def outsAt1 (c : Dev nD) : (n : ℕ) → n < cfg1.N → Vec F S2048x1024 .f32 × Vec F S2048x1024 .f32
  | 0, hn =>
    (outFirst c ⟨0, hn⟩ ((firstK_iff ⟨0, hn⟩).mpr (Nat.zero_mod _)) (fun h => (fun h => by (try dsimp only at h); omega) ((lastK_iff ⟨0, hn⟩).mp h)) (iblk1 V c 0 ⟨0, hn⟩) (iblk1 V c 1 ⟨0, hn⟩) (iblk1 V c 2 ⟨0, hn⟩),
     accFirst c ⟨0, hn⟩ ((firstK_iff ⟨0, hn⟩).mpr (Nat.zero_mod _)) (fun h => (fun h => by (try dsimp only at h); omega) ((lastK_iff ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (outFirst c ⟨n + 1, hn⟩ ((firstK_iff ⟨n + 1, hn⟩).mpr h0) (fun h => h1 ((lastK_iff ⟨n + 1, hn⟩).mp h)) (iblk1 V c 0 ⟨n + 1, hn⟩) (iblk1 V c 1 ⟨n + 1, hn⟩) (iblk1 V c 2 ⟨n + 1, hn⟩),
         accFirst c ⟨n + 1, hn⟩ ((firstK_iff ⟨n + 1, hn⟩).mpr h0) (fun h => h1 ((lastK_iff ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (outLast c ⟨n + 1, hn⟩ (fun h => h0 ((firstK_iff ⟨n + 1, hn⟩).mp h)) ((lastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         accLast c ⟨n + 1, hn⟩ (fun h => h0 ((firstK_iff ⟨n + 1, hn⟩).mp h)) ((lastK_iff ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (outMid c ⟨n + 1, hn⟩ (fun h => h0 ((firstK_iff ⟨n + 1, hn⟩).mp h)) (fun h => h1 ((lastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         accMid c ⟨n + 1, hn⟩ (fun h => h0 ((firstK_iff ⟨n + 1, hn⟩).mp h)) (fun h => h1 ((lastK_iff ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point with k = 0. -/
theorem outsAt1_first (c : Dev nD) (t : Fin cfg1.N) (h0 : t.val % 8 = 0) (h1 : ¬t.val % 8 = 7) :
    outsAt1 V c t.val t.isLt =
      (outFirst c t ((firstK_iff t).mpr h0) (fun h => h1 ((lastK_iff t).mp h)) (iblk1 V c 0 t) (iblk1 V c 1 t) (iblk1 V c 2 t),
       accFirst c t ((firstK_iff t).mpr h0) (fun h => h1 ((lastK_iff t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point with 0 < k < 7: over what the point before left. -/
theorem outsAt1_mid (c : Dev nD) (t : Fin cfg1.N) (h0 : ¬t.val % 8 = 0) (h1 : ¬t.val % 8 = 7) :
    outsAt1 V c t.val t.isLt =
      (outMid c t (fun h => h0 ((firstK_iff t).mp h)) (fun h => h1 ((lastK_iff t).mp h)) (iblk1 V c 0 t) (iblk1 V c 1 t) (iblk1 V c 2 t) (outsAt1 V c (t.val - 1) (Nat.lt_of_le_of_lt (Nat.sub_le _ _) t.isLt)).2,
       accMid c t (fun h => h0 ((firstK_iff t).mp h)) (fun h => h1 ((lastK_iff t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 7: over what the point before left. -/
theorem outsAt1_last (c : Dev nD) (t : Fin cfg1.N) (h0 : ¬t.val % 8 = 0) (h1 : t.val % 8 = 7) :
    outsAt1 V c t.val t.isLt =
      (outLast c t (fun h => h0 ((firstK_iff t).mp h)) ((lastK_iff t).mpr h1) (iblk1 V c 0 t) (iblk1 V c 1 t) (iblk1 V c 2 t) (outsAt1 V c (t.val - 1) (Nat.lt_of_le_of_lt (Nat.sub_le _ _) t.isLt)).2,
       accLast c t (fun h => h0 ((firstK_iff t).mp h)) ((lastK_iff t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: the plain invariant before the first point; afterwards the running total's buffer at what the
    point before left, the other scoped buffers at anything, the generator register at some state. -/
def PhiS (c : Dev nD) : (n : ℕ) → n ≤ cfg1.N → sProp 𝕄
  | 0, _ => Pipeline.ΦA spec1 c
  | n + 1, hn => iprop(restWith c (owns (c : Thread nD τ) accM fullShare ((outsAt1 V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(restWith c (owns (c : Thread nD τ) accM fullShare ((outsAt1 V c n hn).2)) ∗ (∃ r, prngReg c r)) := rfl

theorem PhiS_pos (c : Dev nD) (n : ℕ) (h : n ≤ cfg1.N) (hz : n ≠ 0) :
    PhiS V c n h = iprop(restWith c (owns (c : Thread nD τ) accM fullShare ((outsAt1 V c (n - 1) (by omega)).2)) ∗ (∃ r, prngReg c r)) := by
  cases n with
  | zero => exact absurd rfl hz
  | succ n => rfl

/-! ## The proof data -/

/-- The second pipeline's proof data on core `c`: the arrays as the region finds them; after the body at point `t` each
    input's buffer at its block, the output's at out t; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (iblk1 V c 2 t) := by
  unfold Dat.leavesExact; rw [live1_2 t, after1_2]

set_option maxHeartbeats 4800000 in
/-- The body at any point: the inputs' buffers hold their blocks; the point's k says which case it is; the invariant hands
    the body the running total at what the point before left (at anything at the very first point) and takes it back at
    this point's; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idle1_3 t (fun h => h1 ((lastK_iff t).mp h))) (noFlush1_3 t (fun h => h1 ((lastK_iff t).mp h)))]
    rw [outsAt1_first V c t h0 h1]
    unfold accFirst; (try dsimp only)
    by_cases hz : t.val = 0
    · rw [PhiS_castSucc V c t, PhiS_zero V c _ _ hz, PhiA1_eq]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((firstAt c t ((firstK_iff t).mpr h0) (fun h => h1 ((lastK_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accFirst_cover c t _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((firstAt c t ((firstK_iff t).mpr h0) (fun h => h1 ((lastK_iff t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accFirst_cover c t _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [live1_3 t ((lastK_iff t).mpr h1)], after1_3]
      rw [outsAt1_last V c t h0 h1]
      unfold outLast accLast; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((lastAt c t (fun h => h0 ((firstK_iff t).mp h)) ((lastK_iff t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accLast_cover c t _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c t _ _ _ _ _ _)
    · rw [Dat.leavesExact_idle (dat1 V c) 3 t (idle1_3 t (fun h => h1 ((lastK_iff t).mp h))) (noFlush1_3 t (fun h => h1 ((lastK_iff t).mp h)))]
      rw [outsAt1_mid V c t h0 h1]
      unfold accMid; (try dsimp only)
      rw [PhiS_castSucc V c t, PhiS_pos V c _ _ hz]
      iintro ⟨⟨HR, Hg⟩, Ho, ⟨%d0, H0⟩, ⟨%d1, H1⟩, ⟨%d2, H2⟩, ⟨%d3, H3⟩⟩
      ihave HR' := (restWith_peel c _) $$ HR
      icases HR' with ⟨Hoth, HS⟩
      iapply ((midAt c t (fun h => h0 ((firstK_iff t).mp h)) (fun h => h1 ((lastK_iff t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hg Hoth]
      · isplitl [HS Hoth]
        · iapply (restWith_fill c _)
          isplitl [Hoth]; · iexact Hoth
          unfold owns; iexists _; isplitr
          swap; · iexact HS
          ipureintro; exact View.read_writes_of_cover _ _ _ _ _ (accMid_cover c t _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: what the running total holds is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HR, Hg⟩
  ihave HR' := (restWith_peel c _) $$ HR
  icases HR' with ⟨Hoth, HS⟩
  isplitl [HS Hoth]
  · iapply (restWith_fill c _)
    isplitl [Hoth]; · iexact Hoth
    iexists _; iexact HS
  iexact Hg

theorem hout1 (c : Dev nD) : (dat1 V c).Φ (Fin.last cfg1.N) ⊢ Pipeline.ΦA spec1 c :=
  Phi_out1 V c _ (by rw [Fin.val_last]; have : cfg1.N = 128 := N_1; omega)

end Cert.KernelIdeal.R1

end
-- ==== Proof.KI_Whole.lean ====
/-
  The whole program as a run of five items: the weight-sampling kernel, three stretches of host operations that compute
  the bias row, and the tiled matrix product.

  `W0 .. W5` are core `c`'s buffer contents at the six boundaries: the launch memory; after the first kernel (its output
  array at what its write-backs leave, everything else as before); after each host stretch; after the second kernel.
  Every weakly fair execution terminates with each unscoped buffer at `W5`: that one run gives both the frame claim (no
  item writes an argument) and the result array (`main_v13` at what the second kernel's write-backs leave).
-/
import proofs.«159802_j18494129176930_2_alg».proof.Proof.KI_R0
import proofs.«159802_j18494129176930_2_alg».proof.Proof.KI_R1
import proofs.«159802_j18494129176930_2_alg».proof.Proof.Gen.KernelIdeal.Regions

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
abbrev U0 : (c : Dev nD) → (b : Ref sig .tc) → Buf (Elt F) ((c : Thread nD τ).loc b) := fun c b => W0 m c b
/-- After the first kernel: its arrays at what the pipeline leaves, every other buffer as entered. -/
def W1 (c : Dev nD) : Valuation τ sig (Elt F) :=
  Pipeline.withArrays spec0 c (W0 m c) fun w => (R0.dat0 (U0 m) c).arrAt w cfg0.N
theorem W1_arr (c : Dev nD) (w : Fin cfg0.W) :
    W1 m c (Proc.devRef .tc (Pipeline.arrRef spec0 w)) = (R0.dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (R0.dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)

/-- After each of the three host stretches. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev U4 : (c : Dev nD) → (b : Ref sig .tc) → Buf (Elt F) ((c : Thread nD τ).loc b) := fun c b => W4 m c b
/-- After the second kernel. -/
def W5 (c : Dev nD) : Valuation τ sig (Elt F) :=
  Pipeline.withArrays spec1 c (W4 m c) fun w => (R1.dat1 (U4 m) c).arrAt w cfg1.N
theorem W5_arr (c : Dev nD) (w : Fin cfg1.W) :
    W5 m c (Proc.devRef .tc (Pipeline.arrRef spec1 w)) = (R1.dat1 (U4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev U5 : (c : Dev nD) → (b : Ref sig .tc) → Buf (Elt F) ((c : Thread nD τ).loc b) := fun c b => W5 m c b
theorem hF1 (c : Dev nD) (w : Fin cfg1.W) : (R1.dat1 (U4 m) c).arrAt w cfg1.N = U5 m c (Pipeline.arrRef spec1 w) :=
  (W5_arr m c w).symm
theorem hrest1 (c : Dev nD) : ∀ b, b ∉ Finset.univ.image (Pipeline.arrRef spec1) → U5 m c b = U4 m c b :=
  fun b hb => W5_of_ne m c b fun w e => hb (Finset.mem_image.mpr ⟨w, Finset.mem_univ _, e⟩)

/-- A buffer no host stretch writes passes through the three of them. -/
theorem W4_of (c : Dev nD) (r : Ref sig .tc) (h1 : r ∉ hostOps1_W) (h2 : r ∉ hostOps1_1_W) (h3 : r ∉ hostOps1_2_W) :
    W4 m c (Proc.devRef .tc r) = W1 m c (Proc.devRef .tc r) :=
  (StableHlo.after_of_writes_sub hostOps1_2 _ hostOps1_2_writes h3).trans
    ((StableHlo.after_of_writes_sub hostOps1_1 _ hostOps1_1_writes h2).trans
      (StableHlo.after_of_writes_sub hostOps1 _ hostOps1_writes h1))

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => R0.dat0 (U0 m) c
  | ⟨1, _⟩ => fun c => R1.dat1 (U4 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m c) ∗ ∃ r, prngReg c r)

/-! ## The two kernels as segments -/

set_option backward.isDefEq.respectTransparency.types false in
/-- The weight-sampling kernel: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The tiled matrix product: entered from every unscoped buffer at `W4`, left at `W5`. Its invariant is the plain one
    before the first point and gives the plain one back after the last (`R1.hin1`, `R1.hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (U4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (R1.hin1 (U4 m) c)
    unfold Pipeline.ΦA
    iintro ⟨Hp, -, Hr⟩
    isplitl [Hr]; · iexact Hr
    iexact Hp
  hout c := by
    rw [Pipeline.ownSems0_none]
    refine Idealize.SL.BI.BIBase.Entails.trans (R1.hout1 (U4 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U4 m c) (U5 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]

set_option backward.isDefEq.respectTransparency.types false in
/-- THE RUN: from any memory with zero counters every weakly fair execution of the program terminates, nothing faulting,
    and every final state holds each unscoped buffer at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Whole

end
-- ==== Proof.KI_Claims.lean ====
/-
  What the run says of the arguments and of the result.

  No item of the program writes an argument array: the two kernels read them through input windows (or not at all), and
  each host operation writes only its own result buffer. So at the last boundary every argument holds its launch
  contents — the frame claim — and the result buffer holds what the second kernel's write-backs leave.
-/
import proofs.«159802_j18494129176930_2_alg».proof.Proof.KI_Whole

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each argument, walked back through the boundaries to the launch memory -/

theorem W5_main_arg0 (c : Dev nD) : W5 m c (Proc.devRef .tc main_arg0) = m ((c : Thread nD τ).loc main_arg0) :=
  (W5_arr m c 0).trans <| (((R1.dat1 (U4 m) c).arrAt_in 0 rfl _).trans (R1.A_eq1 (U4 m) c 0)).trans <|
    (W4_of m c main_arg0 (by decide) (by decide) (by decide)).trans <| (W1_of_ne m c main_arg0 (by decide)).trans rfl
theorem W5_main_arg1 (c : Dev nD) : W5 m c (Proc.devRef .tc main_arg1) = m ((c : Thread nD τ).loc main_arg1) :=
  (W5_of_ne m c main_arg1 (by decide)).trans <| (W4_of m c main_arg1 (by decide) (by decide) (by decide)).trans <|
    (W1_arr m c 0).trans <| (((R0.dat0 (U0 m) c).arrAt_in 0 rfl _).trans (R0.A_eq0 (U0 m) c 0)).trans rfl
theorem W5_main_arg2 (c : Dev nD) : W5 m c (Proc.devRef .tc main_arg2) = m ((c : Thread nD τ).loc main_arg2) :=
  (W5_of_ne m c main_arg2 (by decide)).trans <| (W4_of m c main_arg2 (by decide) (by decide) (by decide)).trans <|
    (W1_arr m c 1).trans <| (((R0.dat0 (U0 m) c).arrAt_in 1 rfl _).trans (R0.A_eq0 (U0 m) c 1)).trans rfl
theorem W5_main_arg3 (c : Dev nD) : W5 m c (Proc.devRef .tc main_arg3) = m ((c : Thread nD τ).loc main_arg3) :=
  (W5_of_ne m c main_arg3 (by decide)).trans <| (W4_of m c main_arg3 (by decide) (by decide) (by decide)).trans <|
    (W1_of_ne m c main_arg3 (by decide)).trans rfl
theorem W5_main_arg4 (c : Dev nD) : W5 m c (Proc.devRef .tc main_arg4) = m ((c : Thread nD τ).loc main_arg4) :=
  (W5_of_ne m c main_arg4 (by decide)).trans <| (W4_of m c main_arg4 (by decide) (by decide) (by decide)).trans <|
    (W1_of_ne m c main_arg4 (by decide)).trans rfl
theorem W5_main_arg5 (c : Dev nD) : W5 m c (Proc.devRef .tc main_arg5) = m ((c : Thread nD τ).loc main_arg5) :=
  (W5_of_ne m c main_arg5 (by decide)).trans <| (W4_of m c main_arg5 (by decide) (by decide) (by decide)).trans <|
    (W1_arr m c 2).trans <| (((R0.dat0 (U0 m) c).arrAt_in 2 rfl _).trans (R0.A_eq0 (U0 m) c 2)).trans rfl
theorem W5_main_arg6 (c : Dev nD) : W5 m c (Proc.devRef .tc main_arg6) = m ((c : Thread nD τ).loc main_arg6) :=
  (W5_of_ne m c main_arg6 (by decide)).trans <| (W4_of m c main_arg6 (by decide) (by decide) (by decide)).trans <|
    (W1_of_ne m c main_arg6 (by decide)).trans rfl

/-- THE FRAME: every weakly fair execution terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c)⟩) (run_all m ρ)

/-- THE RESULT: the same run, with the result buffer at what the second kernel's write-backs leave. -/
theorem result : θ_run defs (onTc (τ := τ) (main (F := F))) ⟨m, fun _ => 0, ρ⟩ (fun r => ∀ c : Dev nD,
      r.2.mem ((c.tc : Thread nD τ).loc main_v13) = (R1.dat1 (U4 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v13 (by decide))).trans (W5_arr m c 3),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c),
      (h c _ (mem_uc main_arg6 (by decide))).trans (W5_main_arg6 m c)⟩) (run_all m ρ)

end Cert.KernelIdeal.Whole

end
-- ==== Proof.Spec.lean ====
/-
  The layer both programs compute, as plain functions on the extended reals.

  A Bayesian linear layer samples its parameters by the reparameterisation
      w = mu + softplus(rho) * eps,        softplus(r) = log (1 + e^r),
  for the weight matrix (one entry per output row o and input column k) and for the bias vector (one entry per
  output o), and then applies them to the rows of x:
      out (t, o) = (sum over k of x (t, k) * w (o, k)) + b o.
  `softplus`, `sample` and `affine` say exactly this, index by index, over the literal shapes of the two programs.
-/
import Idealize.ShloMosaic.PureOps.Ideal
import Idealize.ShloMosaic.Lib.ValueIdx
import Mathlib.Algebra.BigOperators.Fin

noncomputable section

namespace Cert.Bayes

open Idealize.ShloMosaic

/-- log (1 + e^r) on the extended reals, spelt with the exponential and the logarithm of one plus its argument. -/
def softplus (r : EReal) : EReal := Ideal.log1p (Ideal.exp r)

/-- A sampled parameter array: the mean plus softplus of rho times the noise, entry by entry. -/
def sample {S : Shape} (mu rho eps : S.Idx → EReal) : S.Idx → EReal :=
  fun j => mu j + softplus (rho j) * eps j

/-- Entry (t, o) of the layer's output: row t of x against row o of w, summed over the 4096 input columns, plus b o. -/
def affineAt (x : (⟨2, ![8192, 4096]⟩ : Shape).Idx → EReal) (w : (⟨2, ![4096, 4096]⟩ : Shape).Idx → EReal)
    (b : (⟨1, ![4096]⟩ : Shape).Idx → EReal) (t : Fin 8192) (o : Fin 4096) : EReal :=
  (∑ k : Fin 4096, x (ValueIdx.ix2 t k) * w (ValueIdx.ix2 o k)) + b (ValueIdx.ix1 o)

/-- The layer's whole output array. -/
def affine (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => affineAt x w b (i 0) (i 1)

end Cert.Bayes

end
-- ==== Proof.SoftplusLaw.lean ====
/-
  The numerically stable spelling of softplus is softplus.

  For a real r,
      log (1 + e^r) = r + log (1 + e^(-r)),
  because 1 + e^r = e^r * (1 + e^(-r)) and the logarithm of a product of two positive reals is the sum of the
  logarithms. A program that computes softplus as "r + log1p (exp (-r)) where r > 0, log1p (exp r) elsewhere" therefore
  selects between two expressions with the same value: whatever the comparison answers, the result is softplus r.
  On the extended reals both arguments of the logarithm are the positive real 1 + e^(±r), so the logarithm's guard for
  non-positive arguments never fires and the identity is the real one, coerced.
-/
import proofs.«159802_j18494129176930_2_alg».proof.Proof.Spec
import Idealize.ShloMosaic.PureOps.Ideal.Laws
import Mathlib.Analysis.SpecialFunctions.Log.Basic

noncomputable section

namespace Cert.Bayes

open Idealize.ShloMosaic

/-- The identity on the reals: log (1 + e^r) = r + log (1 + e^(-r)). -/
theorem real_softplus_stable (r : ℝ) : Real.log (1 + Real.exp r) = r + Real.log (1 + Real.exp (-r)) := by
  have hprod : 1 + Real.exp r = Real.exp r * (1 + Real.exp (-r)) := by
    rw [mul_add, mul_one, ← Real.exp_add, add_neg_cancel, Real.exp_zero, add_comm]
  have hpos : (0 : ℝ) < 1 + Real.exp (-r) := add_pos_of_pos_of_nonneg one_pos (Real.exp_pos _).le
  rw [hprod, Real.log_mul (Real.exp_pos r).ne' hpos.ne', Real.log_exp]

/-- log1p of the exponential of a real, on the extended reals, is the real log (1 + e^r). -/
theorem log1p_exp_coe (r : ℝ) : Ideal.log1p (Ideal.exp (r : EReal)) = ((Real.log (1 + Real.exp r) : ℝ) : EReal) := by
  have hpos : (0 : ℝ) < 1 + Real.exp r := add_pos_of_pos_of_nonneg one_pos (Real.exp_pos _).le
  unfold Ideal.log1p
  rw [Ideal.exp_coe, ← EReal.coe_one, ← EReal.coe_add, Ideal.log_coe, if_neg (not_le.mpr hpos)]

/-- softplus of a real is the real log (1 + e^r). -/
theorem softplus_coe (r : ℝ) : softplus (r : EReal) = ((Real.log (1 + Real.exp r) : ℝ) : EReal) :=
  log1p_exp_coe r

/-- The stable branch: r + log1p (exp (-r)) is softplus r. -/
theorem add_log1p_exp_neg (r : ℝ) : (r : EReal) + Ideal.log1p (Ideal.exp (-(r : EReal))) = softplus (r : EReal) := by
  rw [softplus_coe, ← EReal.coe_neg, log1p_exp_coe, ← EReal.coe_add, ← real_softplus_stable]

/-- A select between two equal values is that value, whatever the condition. -/
theorem select_same {α : Type} (c : BitVec 1) (a : α) : Scalar.select c a a = a := by
  unfold Scalar.select; split <;> rfl

/-- The stable form with the negation spelt as a subtraction from the float word zero (a kernel's vector code):
    select (r > 0) (r + log1p (exp (0 - r))) (log1p (exp r)) = softplus r. -/
theorem softplus_stable (r : ℝ) :
    Scalar.select (Ideal.cmp .ogt (r : EReal) (Ideal.ofBits .f32 0x00000000#32))
        ((r : EReal) + Ideal.log1p (Ideal.exp (Ideal.ofBits .f32 0x00000000#32 - (r : EReal))))
        (Ideal.log1p (Ideal.exp (r : EReal)))
      = softplus (r : EReal) := by
  have hb : (r : EReal) + Ideal.log1p (Ideal.exp (Ideal.ofBits .f32 0x00000000#32 - (r : EReal))) = softplus (r : EReal) := by
    rw [Ideal.ofBits_zero_f32, zero_sub]; exact add_log1p_exp_neg r
  rw [hb]; exact select_same _ _

/-- The stable form with the negation spelt as a negation (the host's negate):
    select (r > 0) (r + log1p (exp (-r))) (log1p (exp r)) = softplus r. -/
theorem softplus_stable_neg (r : ℝ) :
    Scalar.select (Ideal.cmp .ogt (r : EReal) (Ideal.ofBits .f32 0x00000000#32))
        ((r : EReal) + Ideal.log1p (Ideal.exp (-(r : EReal))))
        (Ideal.log1p (Ideal.exp (r : EReal)))
      = softplus (r : EReal) := by
  rw [add_log1p_exp_neg r]; exact select_same _ _

end Cert.Bayes

end
-- ==== Proof.Payloads.lean ====
/-
  The arithmetic of the two kernel bodies, read at one index, on the extended reals.

  The first body (one 512 x 512 tile of the weight) stores mu + s * eps, where s is softplus of rho computed in the
  numerically stable way: r + log1p (exp (0 - r)) where r > 0, log1p (exp r) elsewhere. Both choices are softplus r when
  r is real, so the tile is the sampled weight mu + softplus rho * eps. The narrowing to bf16 changes nothing here.

  The second body (one 2048 x 1024 tile of the output, visited once per 512 input columns) does three things:
  it clears the accumulator (every entry 0); it adds to entry (p, q) of the accumulator the partial dot product
  sum over the 512 columns j of x (p, j) * w (q, j) -- a matmul contracting the second axis of both operands into a zero
  accumulator is exactly that sum --; and it adds the bias row, entry q of a 1 x 1024 row repeated over the 2048 rows.
-/
import proofs.«159802_j18494129176930_2_alg».proof.Proof.Spec
import proofs.«159802_j18494129176930_2_alg».proof.Proof.SoftplusLaw
import proofs.«159802_j18494129176930_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bayes

open Cert.KernelIdeal Cert.KernelIdeal.Gen Idealize.ShloMosaic Idealize.ShloMosaic.ValueIdx

/-! ## The accumulator is cleared -/

/-- Every entry of the cleared accumulator is 0. -/
theorem pay_zero (p : Fin 2048) (q : Fin 1024) : k1_pay1 (F := Ideal) (ix2 p q) = 0 := by
  unfold k1_pay1
  refine (congrFun (shapeCast_self _ _) (ix2 p q)).trans ?_
  exact Ideal.ofBits_zero_f32

/-! ## One step of the accumulation -/

/-- The left operand's index at output index (p, q) and contraction position k has first coordinate p. -/
theorem lhs_coord0 (i : S2048x1024.Idx) (k : dot_S2048x512_S1024x512_S2048x1024_1_1_0_0_n_n.contr.Idx) :
    (dot_S2048x512_S1024x512_S2048x1024_1_1_0_0_n_n.lhsIdx i k 0).val = (i 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl

/-- The right operand's index at output index (p, q) and contraction position k has first coordinate q. -/
theorem rhs_coord0 (i : S2048x1024.Idx) (k : dot_S2048x512_S1024x512_S2048x1024_1_1_0_0_n_n.contr.Idx) :
    (dot_S2048x512_S1024x512_S2048x1024_1_1_0_0_n_n.rhsIdx i k 0).val = (i 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl

/-- The matmul of a 2048 x 512 block against a 1024 x 512 block, both contracted along their second axis, into the
    zero accumulator: entry (p, q) is the sum over the 512 columns j of a (p, j) * b (q, j). -/
theorem matmul_at (a : FVec Ideal S2048x512 .bf16) (b : FVec Ideal S1024x512 .bf16) (p : Fin 2048) (q : Fin 1024) :
    matmul dot_S2048x512_S1024x512_S2048x1024_1_1_0_0_n_n none a b (constant (F := Ideal) S2048x1024 .f32 0x00000000#32) (ix2 p q)
      = ∑ j : Fin 512, a (ix2 p j) * b (ix2 q j) := by
  simp only [matmul]
  rw [Ideal.matmul_constant_zero_apply,
    ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p q)
      ((contrEquiv1 dot_S2048x512_S1024x512_S2048x1024_1_1_0_0_n_n 512 rfl rfl).symm k) = ix2 p k :=
    funext fun c => Fin.ext (by
      match c with
      | ⟨0, _⟩ => exact lhs_coord0 _ _
      | ⟨1, _⟩ => exact (dot_S2048x512_S1024x512_S2048x1024_1_1_0_0_n_n.lhsIdx_val_of_single rfl _ _).trans hk)
  have er : dot_S2048x512_S1024x512_S2048x1024_1_1_0_0_n_n.rhsIdx (ix2 p q)
      ((contrEquiv1 dot_S2048x512_S1024x512_S2048x1024_1_1_0_0_n_n 512 rfl rfl).symm k) = ix2 q k :=
    funext fun c => Fin.ext (by
      match c with
      | ⟨0, _⟩ => exact rhs_coord0 _ _
      | ⟨1, _⟩ => exact (dot_S2048x512_S1024x512_S2048x1024_1_1_0_0_n_n.rhsIdx_val_of_single rfl _ _).trans hk)
  rw [el, er]

/-- One visit adds to entry (p, q) of the accumulator the partial dot product over the visit's 512 columns. -/
theorem pay_acc (v3 : Vec Ideal S2048x512 .f32) (v5 : Vec Ideal S2048x1024 .f32) (v6 : Vec Ideal S1024x512 .bf16)
    (p : Fin 2048) (q : Fin 1024) :
    k1_pay2 v3 v5 v6 (ix2 p q) = v5 (ix2 p q) + ∑ j : Fin 512, v3 (ix2 p j) * v6 (ix2 q j) := by
  unfold k1_pay2
  refine (congrFun (shapeCast_self _ _) (ix2 p q)).trans ?_
  refine congrArg (v5 (ix2 p q) + ·) ?_
  refine (congrArg (fun w => matmul dot_S2048x512_S1024x512_S2048x1024_1_1_0_0_n_n none
      (truncf .bf16 v3 Facts₀.bitsLt_bf16_f32) w (constant (F := Ideal) S2048x1024 .f32 0x00000000#32) (ix2 p q))
      (shapeCast_self v6 _)).trans ?_
  exact matmul_at _ v6 p q

/-! ## The bias row -/

/-- The last visit adds entry q of the bias row to entry (p, q) of the accumulator. -/
theorem pay_bias (v16 : Vec Ideal S2048x1024 .f32) (v17 : Vec Ideal S1x1024 .f32) (p : Fin 2048) (q : Fin 1024) :
    k1_pay3 v16 v17 (ix2 p q) = v16 (ix2 p q) + v17 (ix2 0 q) := by
  unfold k1_pay3
  refine congrArg (v16 (ix2 p q) + ·) ?_
  refine (broadcastTo_1b_ab_apply _ _ p q).trans ?_
  exact congrFun (shapeCast_self v17 _) _

/-! ## The sampled weight tile -/

/-- Where rho is real, the first body's stored value at (p, q) is mu + softplus rho * eps there. -/
theorem pay_weight (v0 v1 v12 : Vec Ideal S512x512 .f32) (p q : Fin 512) (r : ℝ) (h : v1 (ix2 p q) = (r : EReal)) :
    k0_pay1 v0 v1 v12 (ix2 p q) = v0 (ix2 p q) + softplus (v1 (ix2 p q)) * v12 (ix2 p q) := by
  unfold k0_pay1
  show v0 (ix2 p q)
      + Scalar.select (Ideal.cmp .ogt (v1 (ix2 p q)) (Ideal.ofBits .f32 0x00000000#32))
          (v1 (ix2 p q) + Ideal.log1p (Ideal.exp (Ideal.ofBits .f32 0x00000000#32 - v1 (ix2 p q))))
          (Ideal.log1p (Ideal.exp (v1 (ix2 p q)))) * v12 (ix2 p q) = _
  rw [h, softplus_stable r]

end Cert.Bayes

end
-- ==== Proof.KI_R0Value.lean ====
/- The weight array region 0 leaves, on the extended reals.

   Region 0 visits the 8 x 8 grid of 512 x 512 tiles of the 4096 x 4096 weight. At grid point t = (a, b) each of the
   three inputs (mu, rho, eps) shows its tile (a, b), and the body stores into the output's tile (a, b) the value
   mu + softplus rho * eps, entry by entry. A tile entry (p, q) of tile (a, b) is entry (512 a + p, 512 b + q) of the
   array, for the inputs and for the output alike, so what point t writes back is tile t of the one array
   sample mu rho eps. The 64 tiles cover the array: entry (o, k) lies in tile (o / 512, k / 512). Hence the array the
   region leaves is sample mu rho eps, provided rho is real everywhere (softplus in its stable spelling is softplus
   only at real arguments). -/
import proofs.«159802_j18494129176930_2_alg».proof.Proof.KI_R0
import proofs.«159802_j18494129176930_2_alg».proof.Proof.Spec
import proofs.«159802_j18494129176930_2_alg».proof.Proof.Payloads
import Idealize.ShloMosaic.Lib.Pipeline.Value
import Idealize.ShloMosaic.Lib.ValueIdx
import Idealize.ShloMosaic.Lib.Tactic

set_option maxRecDepth 16384

noncomputable section

namespace Cert.KernelIdeal.R0V

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The body's rectangle starts at the origin of the staging buffer. -/
theorem origin_zero : (![0, 0] : Fin 2 → Nat) = fun _ => 0 := funext fun a => by fin_cases a <;> rfl

/-! ## One entry of a tile -/

/-- If the three loaded tiles show, at tile entry j, the arrays mu, rho, eps at array entry i, and rho is real there,
    then the stored value at j is the sampled weight at i. -/
theorem tile_entry (x0 x1 x2 : Vec Ideal S512x512 .f32) (mu rho eps : S4096x4096.Idx → EReal) (j : S512x512.Idx)
    (i : S4096x4096.Idx) (h0 : x0 j = mu i) (h1 : x1 j = rho i) (h2 : x2 j = eps i) (hr : ∃ r : ℝ, rho i = (r : EReal)) :
    k0_pay1 x0 x1 x2 j = Cert.Bayes.sample mu rho eps i := by
  obtain ⟨p, q, rfl⟩ : ∃ (p q : Fin 512), j = ix2 p q := ⟨j 0, j 1, eq_ix2 j⟩
  obtain ⟨r, hr⟩ := hr
  rw [Cert.Bayes.pay_weight x0 x1 x2 p q r (h1.trans hr), h0, h1, h2]
  rfl

/-! ## The tiles' positions -/

/-- Decided once over the 64 grid points: every input window's tile index is the output window's, on both axes, and
    the output's tile indices are at most 7. -/
theorem tile_index : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every tile position (a, b) of the 8 x 8 tiling is some grid point's. -/
theorem tile_onto : ∀ (a b : Fin 8), ∃ t : Fin cfg0.N, win0_3.index t = ![a.val, b.val] :=
  (by decide +kernel : ∀ (a b : Fin 8), ∃ t : Fin grid0.N, win0_3.index t = ![a.val, b.val])

/-! ## The input tiles, read where the output's tile sits -/

/-- Tile entry j of input window 0 (mu) at point t is the array entry the output window's tile has at j. -/
theorem in0_at (c : Dev nD) (t : Fin cfg0.N) (j : S512x512.Idx) :
    (R0.iblk0 V c 0 t : Vec Ideal S512x512 .f32) j
      = (V c main_arg1 : S4096x4096.Idx → EReal) (((cfg0.win 3).blk t).view.emb j) := by
  obtain ⟨e0, e1, -⟩ := tile_index t
  unfold R0.iblk0
  rw [View.read_apply]
  show (V c main_arg1 : S4096x4096.Idx → EReal) (((cfg0.win 0).blk t).view.emb j) = _
  refine congrArg (V c main_arg1 : S4096x4096.Idx → EReal) ?_
  funext a; apply Fin.ext
  match a with
  | ⟨0, _⟩ => show win0_0.index t (0 : Fin 2) * 512 + 1 * (j 0).val = win0_3.index t (0 : Fin 2) * 512 + 1 * (j 0).val; rw [e0]
  | ⟨1, _⟩ => show win0_0.index t (1 : Fin 2) * 512 + 1 * (j 1).val = win0_3.index t (1 : Fin 2) * 512 + 1 * (j 1).val; rw [e1]

/-- The same for input window 1 (rho). -/
theorem in1_at (c : Dev nD) (t : Fin cfg0.N) (j : S512x512.Idx) :
    (R0.iblk0 V c 1 t : Vec Ideal S512x512 .f32) j
      = (V c main_arg2 : S4096x4096.Idx → EReal) (((cfg0.win 3).blk t).view.emb j) := by
  obtain ⟨-, -, e0, e1, -⟩ := tile_index t
  unfold R0.iblk0
  rw [View.read_apply]
  show (V c main_arg2 : S4096x4096.Idx → EReal) (((cfg0.win 1).blk t).view.emb j) = _
  refine congrArg (V c main_arg2 : S4096x4096.Idx → EReal) ?_
  funext a; apply Fin.ext
  match a with
  | ⟨0, _⟩ => show win0_1.index t (0 : Fin 2) * 512 + 1 * (j 0).val = win0_3.index t (0 : Fin 2) * 512 + 1 * (j 0).val; rw [e0]
  | ⟨1, _⟩ => show win0_1.index t (1 : Fin 2) * 512 + 1 * (j 1).val = win0_3.index t (1 : Fin 2) * 512 + 1 * (j 1).val; rw [e1]

/-- The same for input window 2 (eps). -/
theorem in2_at (c : Dev nD) (t : Fin cfg0.N) (j : S512x512.Idx) :
    (R0.iblk0 V c 2 t : Vec Ideal S512x512 .f32) j
      = (V c main_arg5 : S4096x4096.Idx → EReal) (((cfg0.win 3).blk t).view.emb j) := by
  obtain ⟨-, -, -, -, e0, e1, -⟩ := tile_index t
  unfold R0.iblk0
  rw [View.read_apply]
  show (V c main_arg5 : S4096x4096.Idx → EReal) (((cfg0.win 2).blk t).view.emb j) = _
  refine congrArg (V c main_arg5 : S4096x4096.Idx → EReal) ?_
  funext a; apply Fin.ext
  match a with
  | ⟨0, _⟩ => show win0_2.index t (0 : Fin 2) * 512 + 1 * (j 0).val = win0_3.index t (0 : Fin 2) * 512 + 1 * (j 0).val; rw [e0]
  | ⟨1, _⟩ => show win0_2.index t (1 : Fin 2) * 512 + 1 * (j 1).val = win0_3.index t (1 : Fin 2) * 512 + 1 * (j 1).val; rw [e1]

/-! ## What a point writes back -/

/-- Point t writes back tile t of the sampled weight. -/
theorem written_back (c : Dev nD) (hreal : ∀ j, ∃ r : ℝ, V c main_arg2 j = (r : EReal)) (t : Fin cfg0.N) :
    (R0.dat0 (F := Ideal) V c).flushed 3 t
      = ((cfg0.win 3).blk t).view.read (Elt Ideal) (Cert.Bayes.sample (V c main_arg1) (V c main_arg2) (V c main_arg5)) := by
  show (cfg0.win 3).cut (grid0.coords t) ((R0.dat0 (F := Ideal) V c).after 3 t) = _
  rw [R0.after0_3]
  unfold R0.out0_3
  rw [View.canon_unit_zero origin_zero]
  simp only [View.ld_unit_zero (S := S512x512) origin_zero]
  funext j
  exact tile_entry (R0.iblk0 V c 0 t) (R0.iblk0 V c 1 t) (R0.iblk0 V c 2 t) (V c main_arg1) (V c main_arg2) (V c main_arg5) j
    (((cfg0.win 3).blk t).view.emb j) (in0_at V c t j) (in1_at V c t j) (in2_at V c t j) (hreal _)

/-! ## The tiles cover the array -/

/-- An array entry is in point t's tile iff on each axis it is within the tile's 512 positions. -/
theorem mem_tile (t : Fin cfg0.N) (i : S4096x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- Entry (o, k) lies in the tile at position (o / 512, k / 512), and that tile is written back. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := tile_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-! ## The array the region leaves -/

/-- Where rho is real everywhere, the weight array after region 0 is the sampled weight of the three arrays the region
    found. -/
theorem weight_array (V : (c : Dev nD) → (b : Ref sig .tc) → Buf (Elt Ideal) ((c : Thread nD τ).loc b)) (c : Dev nD)
    (hreal : ∀ j, ∃ r : ℝ, V c main_arg2 j = (r : EReal)) :
    (R0.dat0 (F := Ideal) V c).arrAt 3 cfg0.N = Cert.Bayes.sample (V c main_arg1) (V c main_arg2) (V c main_arg5) :=
  (R0.dat0 (F := Ideal) V c).arrAt_eq_of_cover 3 (Cert.Bayes.sample (V c main_arg1) (V c main_arg2) (V c main_arg5))
    (fun t _ => written_back V c hreal t) covered

end Cert.KernelIdeal.R0V

end
-- ==== Proof.LayerAt.lean ====
/- One entry of the layer's output, with the bias kept as the 1 x 4096 row the tiled product is handed.

   Entry (r, o) is row r of x against row o of the weight over the 4096 input columns, plus entry o of the bias row.
   It is the specification's entry once the row is read as a vector. -/
import proofs.«159802_j18494129176930_2_alg».proof.Proof.Spec

noncomputable section

namespace Cert.Bayes

open Idealize.ShloMosaic Idealize.ShloMosaic.ValueIdx

/-- Entry (r, o) of the layer's output over a bias given as a 1 x 4096 row. -/
def layerAt (x : (⟨2, ![8192, 4096]⟩ : Shape).Idx → EReal) (w : (⟨2, ![4096, 4096]⟩ : Shape).Idx → EReal)
    (b : (⟨2, ![1, 4096]⟩ : Shape).Idx → EReal) (r : Fin 8192) (o : Fin 4096) : EReal :=
  (∑ k : Fin 4096, x (ix2 r k) * w (ix2 o k)) + b (ix2 0 o)

/-- Spelt out. -/
theorem layerAt_def (x : (⟨2, ![8192, 4096]⟩ : Shape).Idx → EReal) (w : (⟨2, ![4096, 4096]⟩ : Shape).Idx → EReal)
    (b : (⟨2, ![1, 4096]⟩ : Shape).Idx → EReal) (r : Fin 8192) (o : Fin 4096) :
    layerAt x w b r o = (∑ k : Fin 4096, x (ix2 r k) * w (ix2 o k)) + b (ix2 0 o) := rfl

/-- It is the specification's entry at the bias vector whose entry o is the row's entry (0, o). -/
theorem layerAt_eq_affineAt (x : (⟨2, ![8192, 4096]⟩ : Shape).Idx → EReal) (w : (⟨2, ![4096, 4096]⟩ : Shape).Idx → EReal)
    (b : (⟨2, ![1, 4096]⟩ : Shape).Idx → EReal) (r : Fin 8192) (o : Fin 4096) :
    layerAt x w b r o = affineAt x w (fun j => b (ix2 0 (j 0))) r o := rfl

end Cert.Bayes

end
-- ==== Proof.KI_R1Value.lean ====
/- The array the tiled matrix product leaves, from what its write-backs write.

   The second kernel walks a 4 x 4 x 8 grid; point t = 32 a + 8 b + k works on the 2048 x 1024 tile (a, b) of the
   8192 x 4096 result and writes that tile back only at the last step of the contraction, k = 7. Entry (p, q) of tile
   (a, b) is entry (2048 a + p, 1024 b + q) of the array. So if, at every point with k = 7, the tile the body leaves is
   the layer's value at those entries (the hypothesis: dot product of a row of x with a row of the weight over all
   4096 columns, plus the bias entry), then every write-back writes a tile of the one array of those values, and the
   16 tiles cover the array: entry (r, o) lies in tile (r / 2048, o / 1024). -/
import proofs.«159802_j18494129176930_2_alg».proof.Proof.KI_R1
import proofs.«159802_j18494129176930_2_alg».proof.Proof.LayerAt
import Idealize.ShloMosaic.Lib.Pipeline.Value
import Idealize.ShloMosaic.Lib.ValueIdx
import Idealize.ShloMosaic.Lib.Tactic

set_option maxRecDepth 16384

noncomputable section

namespace Cert.KernelIdeal.R1W

open Cert.KernelIdeal Cert.KernelIdeal.Gen
open Idealize.ShloMosaic Idealize.ShloMosaic.TcCoe Idealize.SL.Sem Idealize.ShloMosaic.ValueIdx
open Idealize.ShloMosaic.Pipeline (Dat)

/-- The layer's array: entry i is the layer's entry at i's two coordinates. -/
def layer (x : S8192x4096.Idx → EReal) (w : S4096x4096.Idx → EReal) (b : S1x4096.Idx → EReal) : S8192x4096.Idx → EReal :=
  fun i => Cert.Bayes.layerAt x w b (i 0) (i 1)

/-- The layer's array at an entry given by its two coordinates. -/
theorem layer_at (x : S8192x4096.Idx → EReal) (w : S4096x4096.Idx → EReal) (b : S1x4096.Idx → EReal) (r : Fin 8192) (o : Fin 4096) :
    layer x w b (ix2 r o) = Cert.Bayes.layerAt x w b r o := rfl

/-! ## The output tiles' positions -/

/-- Decided once over the 128 grid points: point t's output tile is at position (t / 32, t / 8 mod 4). -/
theorem tile_index : ∀ t : Fin cfg1.N,
    win1_3.index t (0 : Fin 2) = t.val / 32 ∧ win1_3.index t (1 : Fin 2) = t.val / 8 % 4 :=
  (by decide +kernel : ∀ t : Fin grid1.N, _)

/-- Every tile position (a, b) of the 4 x 4 tiling is the position of a point at the last contraction step. -/
theorem tile_onto : ∀ (a b : Fin 4), ∃ t : Fin cfg1.N, t.val % 8 = 7 ∧ win1_3.index t = ![a.val, b.val] :=
  (by decide +kernel : ∀ (a b : Fin 4), ∃ t : Fin grid1.N, t.val % 8 = 7 ∧ win1_3.index t = ![a.val, b.val])

/-! ## An entry of a tile, in the array -/

/-- Tile entry (p, q) of the output tile at point t is array entry (2048 (t / 32) + p, 1024 (t / 8 mod 4) + q). -/
theorem tile_entry_pos (t : Fin cfg1.N) (p : Fin 2048) (q : Fin 1024)
    (hr : 2048 * (t.val / 32) + p.val < 8192) (hq : 1024 * (t.val / 8 % 4) + q.val < 4096) :
    (((cfg1.win 3).blk t).view.emb (ix2 p q) : S8192x4096.Idx)
      = ix2 ⟨2048 * (t.val / 32) + p.val, hr⟩ ⟨1024 * (t.val / 8 % 4) + q.val, hq⟩ := by
  obtain ⟨e0, e1⟩ := tile_index t
  funext a; apply Fin.ext
  match a with
  | ⟨0, _⟩ => show win1_3.index t (0 : Fin 2) * 2048 + 1 * p.val = 2048 * (t.val / 32) + p.val; rw [e0]; omega
  | ⟨1, _⟩ => show win1_3.index t (1 : Fin 2) * 1024 + 1 * q.val = 1024 * (t.val / 8 % 4) + q.val; rw [e1]; omega

/-- A point's tile position is inside the 4 x 4 tiling, so its entries are inside the array. -/
theorem tile_inside (t : Fin cfg1.N) (p : Fin 2048) (q : Fin 1024) :
    2048 * (t.val / 32) + p.val < 8192 ∧ 1024 * (t.val / 8 % 4) + q.val < 4096 := by
  have ht : t.val < 128 := lt_of_lt_of_eq t.isLt (N_1 : cfg1.N = 128)
  have hp := p.isLt
  have hq := q.isLt
  omega

/-! ## What a write-back writes -/

section
variable (V : (c : Dev nD) → (b : Ref sig .tc) → Buf (Elt Ideal) ((c : Thread nD τ).loc b))

/-- Where the tile left at every last contraction step is the layer's value at the tile's entries, every write-back
    writes the corresponding tile of the layer's array. -/
theorem written_back (c : Dev nD)
    (hblk : ∀ (t : Fin cfg1.N) (ht : t.val % 8 = 7) (p : Fin 2048) (q : Fin 1024) (hr : 2048 * (t.val / 32) + p.val < 8192) (hq : 1024 * (t.val / 8 % 4) + q.val < 4096),
      (R1.outsAt1 (F := Ideal) V c t.val t.isLt).1 (ix2 p q)
        = Cert.Bayes.layerAt (V c main_arg0) (V c main_v0) (V c main_v12) ⟨2048 * (t.val / 32) + p.val, hr⟩ ⟨1024 * (t.val / 8 % 4) + q.val, hq⟩)
    (t : Fin cfg1.N) (hf : (cfg1.win 3).flush t = true) :
    (R1.dat1 (F := Ideal) V c).flushed 3 t
      = ((cfg1.win 3).blk t).view.read (Elt Ideal) (layer (V c main_arg0) (V c main_v0) (V c main_v12)) := by
  have ht : t.val % 8 = 7 := (flush1_3 t).mp hf
  show (cfg1.win 3).cut (grid1.coords t) ((R1.dat1 (F := Ideal) V c).after 3 t) = _
  rw [R1.after1_3]
  funext j
  obtain ⟨p, q, rfl⟩ : ∃ (p : Fin 2048) (q : Fin 1024), j = ix2 p q := ⟨j 0, j 1, eq_ix2 j⟩
  obtain ⟨hr, hq⟩ := tile_inside t p q
  refine (hblk t ht p q hr hq).trans ?_
  rw [View.read_apply]
  refine ((layer_at (V c main_arg0) (V c main_v0) (V c main_v12) ⟨2048 * (t.val / 32) + p.val, hr⟩ ⟨1024 * (t.val / 8 % 4) + q.val, hq⟩).symm).trans ?_
  exact congrArg (layer (V c main_arg0) (V c main_v0) (V c main_v12)) (tile_entry_pos t p q hr hq).symm

end

/-! ## The tiles cover the array -/

/-- An array entry is in point t's output tile iff on each axis it is within the tile's extent. -/
theorem mem_tile (t : Fin cfg1.N) (i : S8192x4096.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v13).slice (win1_3.rect t)).set ↔ _
  rw [View.set_slice_whole, Rect.mem_set_unit]
  exact Iff.rfl

/-- Entry (r, o) lies in the tile at position (r / 2048, o / 1024), which a point at the last contraction step writes back. -/
theorem covered (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht, hix⟩ := tile_onto ⟨(i 0).val / 2048, by omega⟩ ⟨(i 1).val / 1024, by omega⟩
  have q0 : win1_3.index t (0 : Fin 2) = (i 0).val / 2048 := congrFun hix 0
  have q1 : win1_3.index t (1 : Fin 2) = (i 1).val / 1024 := congrFun hix 1
  refine ⟨t, (flush1_3 t).mpr ht, ?_⟩
  rw [mem_tile]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-! ## The array the region leaves -/

/-- Where the tile left at every last contraction step is the layer's value at the tile's entries, the result array
    after the region is the layer's array: x against the rows of the weight, plus the bias row. -/
theorem result_array (V : (c : Dev nD) → (b : Ref sig .tc) → Buf (Elt Ideal) ((c : Thread nD τ).loc b)) (c : Dev nD)
    (hblk : ∀ (t : Fin cfg1.N) (ht : t.val % 8 = 7) (p : Fin 2048) (q : Fin 1024) (hr : 2048 * (t.val / 32) + p.val < 8192) (hq : 1024 * (t.val / 8 % 4) + q.val < 4096),
      (R1.outsAt1 (F := Ideal) V c t.val t.isLt).1 (ix2 p q)
        = Cert.Bayes.layerAt (V c main_arg0) (V c main_v0) (V c main_v12) ⟨2048 * (t.val / 32) + p.val, hr⟩ ⟨1024 * (t.val / 8 % 4) + q.val, hq⟩) :
    (R1.dat1 (F := Ideal) V c).arrAt 3 cfg1.N
      = fun i => Cert.Bayes.layerAt (V c main_arg0) (V c main_v0) (V c main_v12) (i 0) (i 1) :=
  (R1.dat1 (F := Ideal) V c).arrAt_eq_of_cover 3 (layer (V c main_arg0) (V c main_v0) (V c main_v12))
    (fun t hf => written_back V c hblk t hf) covered

end Cert.KernelIdeal.R1W

end
-- ==== Proof.KI_R1Pieces.lean ====
/-
  The tiled matrix product: what the body leaves at one grid point, as plain arithmetic on the point's blocks.

  Every store and load of the body goes through the whole of its buffer (the rectangle at offset (0, 0) of the buffer's
  own size), so a load reads the buffer's contents and the last store into a buffer leaves its value there. Hence:
  where k = 0 the running total is cleared, read back as the zeros, and ends at zeros + x-tile times w-tile; elsewhere it
  ends at its old contents + x-tile times w-tile; and where k = 7 the output block is that new total with the bias row
  added to every row.
-/
import proofs.«159802_j18494129176930_2_alg».proof.Proof.KI_R1
import Idealize.ShloMosaic.Lib.Pipeline.Value

set_option maxRecDepth 16384

noncomputable section

namespace Cert.KernelIdeal.R1V

open Idealize.ShloMosaic Idealize.ShloMosaic.TcCoe Idealize.ShloMosaic.Tactic
open Idealize.SL.Sem
open Cert.KernelIdeal Cert.KernelIdeal.Gen Cert.KernelIdeal.R1

variable {F : FTy → Type} [FloatOps F]

/-- The offset (0, 0), as the constant function 0. -/
theorem hz : (![0, 0] : Fin 2 → Nat) = fun _ => 0 := funext fun a => by fin_cases a <;> rfl

/-- Where k = 0: the cleared total plus the product of the two tiles. -/
theorem accFirst_eq (c : Dev nD) (t : Fin cfg1.N) (h0 : firstK (grid1.coords t)) (h1 : ¬lastK (grid1.coords t))
    (x0 : Vec F S2048x512 .f32) (x1 : Vec F S1024x512 .bf16) (x2 : Vec F S1x1024 .f32) :
    accFirst c t h0 h1 x0 x1 x2 = k1_pay2 x0 k1_pay1 x1 := by
  unfold accFirst
  rw [View.read_writes_junk_eq_canon]
  unfold firstAt runFirst
  dsimp only
  sl_unfold_words
  rw [View.canon_cons_unit_zero (S := S2048x1024) hz, View.readCov_unit_zero (S := S2048x1024) _ hz]
  simp only [View.readAt_eq_ld, (hs1_0 t).read_unread, (hs1_1 t).read_unread,
    View.ld_unit_zero (S := S2048x512) hz, View.ld_unit_zero (S := S1024x512) hz]

/-- Where 0 < k < 7: the old total plus the product of the two tiles. -/
theorem accMid_eq (c : Dev nD) (t : Fin cfg1.N) (h0 : ¬firstK (grid1.coords t)) (h1 : ¬lastK (grid1.coords t))
    (x0 : Vec F S2048x512 .f32) (x1 : Vec F S1024x512 .bf16) (x2 : Vec F S1x1024 .f32) (xs : Vec F S2048x1024 .f32) :
    accMid c t h0 h1 x0 x1 x2 xs = k1_pay2 x0 xs x1 := by
  unfold accMid
  rw [View.read_writes_junk_eq_canon]
  unfold midAt runMid
  dsimp only
  rw [View.canon_unit_zero (S := S2048x1024) hz]
  simp only [View.readAt_eq_ld, (hs1_0 t).read_unread, (hs1_1 t).read_unread, (Memref.isWhole_whole cc1_scratch0).read_unread,
    View.ld_unit_zero (S := S2048x512) hz, View.ld_unit_zero (S := S1024x512) hz, View.ld_unit_zero (S := S2048x1024) hz]

/-- Where k = 7 the running total likewise ends at the old total plus the product of the two tiles, -/
theorem accLast_eq (c : Dev nD) (t : Fin cfg1.N) (h0 : ¬firstK (grid1.coords t)) (h1 : lastK (grid1.coords t))
    (x0 : Vec F S2048x512 .f32) (x1 : Vec F S1024x512 .bf16) (x2 : Vec F S1x1024 .f32) (xs : Vec F S2048x1024 .f32) :
    accLast c t h0 h1 x0 x1 x2 xs = k1_pay2 x0 xs x1 := by
  unfold accLast
  rw [View.read_writes_junk_eq_canon]
  unfold lastAt runLast
  dsimp only
  sl_unfold_words
  rw [View.canon_unit_zero (S := S2048x1024) hz]
  simp only [View.readAt_eq_ld, (hs1_0 t).read_unread, (hs1_1 t).read_unread, (Memref.isWhole_whole cc1_scratch0).read_unread,
    View.ld_unit_zero (S := S2048x512) hz, View.ld_unit_zero (S := S1024x512) hz, View.ld_unit_zero (S := S2048x1024) hz]

/-- and the output block is that new total, read back, with the bias row added. -/
theorem outLast_eq (c : Dev nD) (t : Fin cfg1.N) (h0 : ¬firstK (grid1.coords t)) (h1 : lastK (grid1.coords t))
    (x0 : Vec F S2048x512 .f32) (x1 : Vec F S1024x512 .bf16) (x2 : Vec F S1x1024 .f32) (xs : Vec F S2048x1024 .f32) :
    outLast c t h0 h1 x0 x1 x2 xs = k1_pay3 (k1_pay2 x0 xs x1) x2 := by
  unfold outLast
  rw [View.read_writes_junk_eq_canon]
  unfold lastAt runLast
  dsimp only
  sl_unfold_words
  rw [View.canon_unit_zero (S := S2048x1024) hz, View.readCov_unit_zero (S := S2048x1024) _ hz]
  simp only [View.readAt_eq_ld, (hs1_0 t).read_unread, (hs1_1 t).read_unread, (hs1_2 t).read_unread,
    (Memref.isWhole_whole cc1_scratch0).read_unread,
    View.ld_unit_zero (S := S2048x512) hz, View.ld_unit_zero (S := S1024x512) hz, View.ld_unit_zero (S := S2048x1024) hz,
    View.ld_unit_zero (S := S1x1024) hz]

end Cert.KernelIdeal.R1V

end
-- ==== Proof.KI_R1Blocks.lean ====
/-
  The second kernel's input blocks, entry by entry.

  The second kernel walks a 4 x 4 x 8 grid; point t stands for (i, j, k) with t = 32 i + 8 j + k, so i = t / 32,
  j = t / 8 mod 4, k = t mod 8. At that point it is shown: of x (8192 x 4096) the block of 2048 rows and 512 columns
  at block position (i, k); of the sampled weight (4096 x 4096) the block of 1024 rows and 512 columns at (j, k); of
  the bias row (1 x 4096) the block of 1024 entries at (0, j). Entry (a, b) of a block at block position (u, v) with
  block sizes (m, n) is entry (m u + a, n v + b) of the array. The block positions are decided once over the 128 points.
-/
import proofs.«159802_j18494129176930_2_alg».proof.Proof.KI_R1Shared
import Idealize.ShloMosaic.Lib.Pipeline.Value
import Idealize.ShloMosaic.Lib.ValueIdx

set_option maxRecDepth 16384

noncomputable section

namespace Cert.KernelIdeal.R1V

open Cert.KernelIdeal Cert.KernelIdeal.Gen Cert.KernelIdeal.R1
open Idealize.ShloMosaic Idealize.ShloMosaic.TcCoe Idealize.SL.Sem Idealize.ShloMosaic.ValueIdx

variable (V : (c : Dev nD) → (b : Ref sig .tc) → Buf (Elt Ideal) ((c : Thread nD τ).loc b))

/-- The three input windows' block positions at point t = 32 i + 8 j + k: (i, k), (j, k) and (0, j). -/
theorem block_index : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val / 8 % 4 :=
  (by decide +kernel : ∀ t : Fin grid1.N, _)

/-- Entry (p, s) of the block of x shown at point t is entry (2048 i + p, 512 k + s) of x. -/
theorem x_block (c : Dev nD) (t : Fin cfg1.N) (p : Fin 2048) (s : Fin 512)
    (h0 : 2048 * (t.val / 32) + p.val < 8192) (h1 : 512 * (t.val % 8) + s.val < 4096) :
    (iblk1 V c 0 t : Vec Ideal S2048x512 .f32) (ix2 p s)
      = (V c main_arg0 : S8192x4096.Idx → EReal) (ix2 ⟨2048 * (t.val / 32) + p.val, h0⟩ ⟨512 * (t.val % 8) + s.val, h1⟩) := by
  obtain ⟨e0, e1, -⟩ := block_index t
  unfold iblk1
  rw [View.read_apply]
  show (V c main_arg0 : S8192x4096.Idx → EReal) (((cfg1.win 0).blk t).view.emb (ix2 p s)) = _
  refine congrArg (V c main_arg0 : S8192x4096.Idx → EReal) ?_
  funext a; apply Fin.ext
  match a with
  | ⟨0, _⟩ => show win1_0.index t (0 : Fin 2) * 2048 + 1 * p.val = 2048 * (t.val / 32) + p.val; rw [e0]; omega
  | ⟨1, _⟩ => show win1_0.index t (1 : Fin 2) * 512 + 1 * s.val = 512 * (t.val % 8) + s.val; rw [e1]; omega

/-- Entry (q, s) of the block of the weight shown at point t is entry (1024 j + q, 512 k + s) of the weight. -/
theorem w_block (c : Dev nD) (t : Fin cfg1.N) (q : Fin 1024) (s : Fin 512)
    (h0 : 1024 * (t.val / 8 % 4) + q.val < 4096) (h1 : 512 * (t.val % 8) + s.val < 4096) :
    (iblk1 V c 1 t : Vec Ideal S1024x512 .bf16) (ix2 q s)
      = (V c main_v0 : S4096x4096.Idx → EReal) (ix2 ⟨1024 * (t.val / 8 % 4) + q.val, h0⟩ ⟨512 * (t.val % 8) + s.val, h1⟩) := by
  obtain ⟨-, -, e0, e1, -⟩ := block_index t
  unfold iblk1
  rw [View.read_apply]
  show (V c main_v0 : S4096x4096.Idx → EReal) (((cfg1.win 1).blk t).view.emb (ix2 q s)) = _
  refine congrArg (V c main_v0 : S4096x4096.Idx → EReal) ?_
  funext a; apply Fin.ext
  match a with
  | ⟨0, _⟩ => show win1_1.index t (0 : Fin 2) * 1024 + 1 * q.val = 1024 * (t.val / 8 % 4) + q.val; rw [e0]; omega
  | ⟨1, _⟩ => show win1_1.index t (1 : Fin 2) * 512 + 1 * s.val = 512 * (t.val % 8) + s.val; rw [e1]; omega

/-- Entry (0, q) of the block of the bias row shown at point t is entry (0, 1024 j + q) of the row. -/
theorem b_block (c : Dev nD) (t : Fin cfg1.N) (q : Fin 1024) (h0 : 1024 * (t.val / 8 % 4) + q.val < 4096) :
    (iblk1 V c 2 t : Vec Ideal S1x1024 .f32) (ix2 (0 : Fin 1) q)
      = (V c main_v12 : S1x4096.Idx → EReal) (ix2 (0 : Fin 1) ⟨1024 * (t.val / 8 % 4) + q.val, h0⟩) := by
  obtain ⟨-, -, -, -, e0, e1⟩ := block_index t
  unfold iblk1
  rw [View.read_apply]
  show (V c main_v12 : S1x4096.Idx → EReal) (((cfg1.win 2).blk t).view.emb (ix2 (0 : Fin 1) q)) = _
  refine congrArg (V c main_v12 : S1x4096.Idx → EReal) ?_
  funext a; apply Fin.ext
  match a with
  | ⟨0, _⟩ => show win1_2.index t (0 : Fin 2) * 1 + 1 * 0 = 0; rw [e0]
  | ⟨1, _⟩ => show win1_2.index t (1 : Fin 2) * 1024 + 1 * q.val = 1024 * (t.val / 8 % 4) + q.val; rw [e1]; omega

end Cert.KernelIdeal.R1V

end
-- ==== Proof.TiledSum.lean ====
/-
  A sum over 4096 consecutive terms, taken 512 at a time.

  Position k of 4096 = 8 * 512 is 512 * q + j for exactly one tile q of 8 and one place j of 512, so the sum over all
  positions is the sum over the tiles of the sums inside each tile. Addition on the extended reals is commutative and
  associative (no cancellation is used), so this regrouping is valid there. A running total that starts at 0 and adds one
  tile's sum per step is, after n steps, the sum over the first n tiles; after 8 steps it is the whole sum.
-/
import Mathlib.Algebra.BigOperators.Fin
import Mathlib.Data.EReal.Basic

noncomputable section

namespace Cert.Bayes

/-- In a commutative additive monoid the sum of the first T * B terms of a sequence is the sum over T blocks of the
    sums of B consecutive terms. -/
theorem sum_blocks {M : Type*} [AddCommMonoid M] (T B : ℕ) (f : ℕ → M) :
    (∑ k : Fin (T * B), f k.val) = ∑ q : Fin T, ∑ j : Fin B, f (B * q.val + j.val) := by
  rw [← Equiv.sum_comp finProdFinEquiv, Fintype.sum_prod_type]
  refine Finset.sum_congr rfl fun q _ => Finset.sum_congr rfl fun j _ => ?_
  show f (j.val + B * q.val) = _
  rw [add_comm]

/-- The 4096 terms as 8 tiles of 512. -/
theorem sum_tiles (f : ℕ → EReal) :
    (∑ k : Fin 4096, f k.val) = ∑ q : Fin 8, ∑ j : Fin 512, f (512 * q.val + j.val) :=
  sum_blocks (M := EReal) 8 512 f

/-- The running total: 0 before the first tile, and each step adds the next tile's 512 terms. -/
def accK (f : ℕ → EReal) : ℕ → EReal
  | 0 => 0
  | n + 1 => accK f n + ∑ j : Fin 512, f (512 * n + j.val)

@[simp] theorem accK_zero (f : ℕ → EReal) : accK f 0 = 0 := rfl

theorem accK_succ (f : ℕ → EReal) (n : ℕ) : accK f (n + 1) = accK f n + ∑ j : Fin 512, f (512 * n + j.val) := rfl

/-- After n steps the running total is the sum over the first n tiles. -/
theorem accK_eq_sum (f : ℕ → EReal) (n : ℕ) : accK f n = ∑ q : Fin n, ∑ j : Fin 512, f (512 * q.val + j.val) := by
  induction n with
  | zero => rw [accK_zero, Finset.univ_eq_empty, Finset.sum_empty]
  | succ n ih =>
    rw [accK_succ, ih]
    exact (Fin.sum_univ_castSucc (fun q : Fin (n + 1) => ∑ j : Fin 512, f (512 * q.val + j.val))).symm

/-- After the eighth step the running total is the whole sum. -/
theorem accK_eight (f : ℕ → EReal) : accK f 8 = ∑ k : Fin 4096, f k.val := by
  rw [accK_eq_sum, sum_tiles]

end Cert.Bayes

end
-- ==== Proof.KI_R1Acc.lean ====
/-
  The tiled matrix product: the output block at a last-tile point is the whole contraction plus the bias entry.

  Fix a row p of the point's 2048 rows of x and a row q of its 1024 rows of the weight, that is row r = 2048 i + p of x and
  row o = 1024 j + q of the weight, and write f n = x (r, n) * w (o, n) for the n-th of the 4096 products. Along k = 0 .. 7
  (the points 32 i + 8 j + k) the row groups i and j do not move and the point's two tiles hold the columns 512 k .. of
  those rows. So entry (p, q) of the running total after the point with tile k is 0 + (the sum of f over the first k + 1
  tiles): the cleared total is 0 and each point adds its own tile's 512 products. After k = 7 that is the sum of all 4096
  products, and the output block is it plus entry o of the bias row.
-/
import proofs.«159802_j18494129176930_2_alg».proof.Proof.KI_R1Pieces
import proofs.«159802_j18494129176930_2_alg».proof.Proof.KI_R1Blocks
import proofs.«159802_j18494129176930_2_alg».proof.Proof.LayerAt
import proofs.«159802_j18494129176930_2_alg».proof.Proof.Payloads
import proofs.«159802_j18494129176930_2_alg».proof.Proof.TiledSum

set_option maxRecDepth 16384

noncomputable section

namespace Cert.KernelIdeal.R1V

open Idealize.ShloMosaic Idealize.ShloMosaic.TcCoe
open Idealize.SL.Sem
open Cert.KernelIdeal Cert.KernelIdeal.Gen Cert.KernelIdeal.R1 Cert.Bayes
open Idealize.ShloMosaic.ValueIdx

/-! ## One step of the running total, for any float values -/

section Steps

variable {F : FTy → Type} [FloatOps F]
variable (V : (c : Dev nD) → (b : Ref sig .tc) → Buf (Elt F) ((c : Thread nD τ).loc b))

/-- Where k = 0 the running total ends at the cleared total plus the product of the point's tiles. -/
theorem acc_first (c : Dev nD) (t : Fin cfg1.N) (h0 : t.val % 8 = 0) :
    (outsAt1 V c t.val t.isLt).2 = k1_pay2 (iblk1 V c 0 t) k1_pay1 (iblk1 V c 1 t) := by
  have h1 : ¬t.val % 8 = 7 := by omega
  rw [outsAt1_first V c t h0 h1]
  dsimp only
  exact accFirst_eq c t ((firstK_iff t).mpr h0) (fun h => h1 ((lastK_iff t).mp h)) (iblk1 V c 0 t) (iblk1 V c 1 t) (iblk1 V c 2 t)

/-- Elsewhere it ends at what the point before left plus the product of the point's tiles. -/
theorem acc_next (c : Dev nD) (t : Fin cfg1.N) (h0 : ¬t.val % 8 = 0) :
    (outsAt1 V c t.val t.isLt).2
      = k1_pay2 (iblk1 V c 0 t) (outsAt1 V c (t.val - 1) (Nat.lt_of_le_of_lt (Nat.sub_le _ _) t.isLt)).2 (iblk1 V c 1 t) := by
  by_cases h1 : t.val % 8 = 7
  · rw [outsAt1_last V c t h0 h1]
    dsimp only
    exact accLast_eq c t (fun h => h0 ((firstK_iff t).mp h)) ((lastK_iff t).mpr h1) (iblk1 V c 0 t) (iblk1 V c 1 t) (iblk1 V c 2 t)
        (outsAt1 V c (t.val - 1) (Nat.lt_of_le_of_lt (Nat.sub_le _ _) t.isLt)).2
  · rw [outsAt1_mid V c t h0 h1]
    dsimp only
    exact accMid_eq c t (fun h => h0 ((firstK_iff t).mp h)) (fun h => h1 ((lastK_iff t).mp h)) (iblk1 V c 0 t) (iblk1 V c 1 t) (iblk1 V c 2 t)
        (outsAt1 V c (t.val - 1) (Nat.lt_of_le_of_lt (Nat.sub_le _ _) t.isLt)).2

/-- Where k = 7 the output block is the running total the point leaves, with the bias row added. -/
theorem out_last (c : Dev nD) (t : Fin cfg1.N) (h1 : t.val % 8 = 7) :
    (outsAt1 V c t.val t.isLt).1 = k1_pay3 (outsAt1 V c t.val t.isLt).2 (iblk1 V c 2 t) := by
  have h0 : ¬t.val % 8 = 0 := by omega
  rw [outsAt1_last V c t h0 h1]
  dsimp only
  rw [accLast_eq c t (fun h => h0 ((firstK_iff t).mp h)) ((lastK_iff t).mpr h1) (iblk1 V c 0 t) (iblk1 V c 1 t) (iblk1 V c 2 t)
        (outsAt1 V c (t.val - 1) (Nat.lt_of_le_of_lt (Nat.sub_le _ _) t.isLt)).2]
  exact outLast_eq c t (fun h => h0 ((firstK_iff t).mp h)) ((lastK_iff t).mpr h1) (iblk1 V c 0 t) (iblk1 V c 1 t) (iblk1 V c 2 t)
      (outsAt1 V c (t.val - 1) (Nat.lt_of_le_of_lt (Nat.sub_le _ _) t.isLt)).2

end Steps

/-! ## At the extended reals -/

section Value

/-- The n-th of the 4096 products of row r of x against row o of the weight (0 when a position is outside the arrays). -/
def prodAt (x : S8192x4096.Idx → EReal) (w : S4096x4096.Idx → EReal) (r o n : ℕ) : EReal :=
  if h : r < 8192 ∧ o < 4096 ∧ n < 4096 then x (ix2 ⟨r, h.1⟩ ⟨n, h.2.2⟩) * w (ix2 ⟨o, h.2.1⟩ ⟨n, h.2.2⟩) else 0

theorem prodAt_of_lt (x : S8192x4096.Idx → EReal) (w : S4096x4096.Idx → EReal) (r o n : ℕ)
    (hr : r < 8192) (ho : o < 4096) (hn : n < 4096) :
    prodAt x w r o n = x (ix2 ⟨r, hr⟩ ⟨n, hn⟩) * w (ix2 ⟨o, ho⟩ ⟨n, hn⟩) := dif_pos ⟨hr, ho, hn⟩

/-- Two tiles that hold the columns 512 k .. of row r of x and of row o of the weight, multiplied along those rows,
    give the k-th tile's 512 products. -/
theorem tile_sum_of (x0 : Vec Ideal S2048x512 .f32) (x1 : Vec Ideal S1024x512 .bf16)
    (x : S8192x4096.Idx → EReal) (w : S4096x4096.Idx → EReal) (r o k : ℕ) (p : Fin 2048) (q : Fin 1024)
    (hr : r < 8192) (ho : o < 4096) (hk : k < 8)
    (hx : ∀ (s : Fin 512) (h : 512 * k + s.val < 4096), x0 (ix2 p s) = x (ix2 ⟨r, hr⟩ ⟨512 * k + s.val, h⟩))
    (hw : ∀ (s : Fin 512) (h : 512 * k + s.val < 4096), x1 (ix2 q s) = w (ix2 ⟨o, ho⟩ ⟨512 * k + s.val, h⟩)) :
    (∑ s : Fin 512, x0 (ix2 p s) * x1 (ix2 q s)) = ∑ s : Fin 512, prodAt x w r o (512 * k + s.val) := by
  refine Finset.sum_congr rfl fun s _ => ?_
  have h : 512 * k + s.val < 4096 := by have := s.isLt; omega
  rw [prodAt_of_lt x w r o _ hr ho h, hx s h, hw s h]

variable (V : (c : Dev nD) → (b : Ref sig .tc) → Buf (Elt Ideal) ((c : Thread nD τ).loc b))

/-- The point's two tiles (`x0`, `x1` name them) along rows p and q are the tile k = t mod 8 of the products of rows
    2048 i + p and 1024 j + q. -/
theorem tile_sum (c : Dev nD) (t : Fin cfg1.N) (p : Fin 2048) (q : Fin 1024)
    (x0 : Vec Ideal S2048x512 .f32) (x1 : Vec Ideal S1024x512 .bf16) (e0 : x0 = iblk1 V c 0 t) (e1 : x1 = iblk1 V c 1 t) :
    (∑ s : Fin 512, x0 (ix2 p s) * x1 (ix2 q s))
      = ∑ s : Fin 512, prodAt (V c main_arg0) (V c main_v0) (2048 * (t.val / 32) + p.val) (1024 * (t.val / 8 % 4) + q.val)
          (512 * (t.val % 8) + s.val) := by
  subst e0 e1
  have hN : t.val < 128 := lt_of_lt_of_eq t.isLt N_1
  have hr : 2048 * (t.val / 32) + p.val < 8192 := by have := p.isLt; omega
  have ho : 1024 * (t.val / 8 % 4) + q.val < 4096 := by have := q.isLt; omega
  exact tile_sum_of (iblk1 V c 0 t) (iblk1 V c 1 t) (V c main_arg0) (V c main_v0) _ _ (t.val % 8) p q hr ho (by omega)
    (fun s h => x_block V c t p s hr h) (fun s h => w_block V c t q s ho h)

/-- After a point with k = 0, entry (p, q) of the running total is the first tile's products added to 0. -/
theorem acc_at_first (c : Dev nD) (t : Fin cfg1.N) (p : Fin 2048) (q : Fin 1024) (h0 : t.val % 8 = 0) :
    (outsAt1 V c t.val t.isLt).2 (ix2 p q)
      = accK (prodAt (V c main_arg0) (V c main_v0) (2048 * (t.val / 32) + p.val) (1024 * (t.val / 8 % 4) + q.val)) (t.val % 8 + 1) := by
  refine (congrFun (acc_first V c t h0) (ix2 p q)).trans ?_
  refine (pay_acc (iblk1 V c 0 t) (k1_pay1 (F := Ideal)) (iblk1 V c 1 t) p q).trans ?_
  rw [pay_zero p q, tile_sum V c t p q (iblk1 V c 0 t) (iblk1 V c 1 t) rfl rfl, h0]
  exact (accK_succ _ 0).symm

/-- After any other point, it is what the point before left plus this point's tile of products. -/
theorem acc_at_next (c : Dev nD) (t : Fin cfg1.N) (p : Fin 2048) (q : Fin 1024) (h0 : ¬t.val % 8 = 0)
    (hprev : (outsAt1 V c (t.val - 1) (Nat.lt_of_le_of_lt (Nat.sub_le _ _) t.isLt)).2 (ix2 p q)
      = accK (prodAt (V c main_arg0) (V c main_v0) (2048 * (t.val / 32) + p.val) (1024 * (t.val / 8 % 4) + q.val)) (t.val % 8)) :
    (outsAt1 V c t.val t.isLt).2 (ix2 p q)
      = accK (prodAt (V c main_arg0) (V c main_v0) (2048 * (t.val / 32) + p.val) (1024 * (t.val / 8 % 4) + q.val)) (t.val % 8 + 1) := by
  refine (congrFun (acc_next V c t h0) (ix2 p q)).trans ?_
  refine (pay_acc (iblk1 V c 0 t) (outsAt1 V c (t.val - 1) (Nat.lt_of_le_of_lt (Nat.sub_le _ _) t.isLt)).2 (iblk1 V c 1 t) p q).trans ?_
  rw [hprev, tile_sum V c t p q (iblk1 V c 0 t) (iblk1 V c 1 t) rfl rfl]
  exact (accK_succ _ _).symm

/-- So after the point with tile k, entry (p, q) of the running total is the sum of the first k + 1 tiles of products. -/
theorem acc_inv (c : Dev nD) : ∀ (n : ℕ) (hn : n < cfg1.N) (p : Fin 2048) (q : Fin 1024),
    (outsAt1 V c n hn).2 (ix2 p q)
      = accK (prodAt (V c main_arg0) (V c main_v0) (2048 * (n / 32) + p.val) (1024 * (n / 8 % 4) + q.val)) (n % 8 + 1)
  | 0, hn, p, q => acc_at_first V c ⟨0, hn⟩ p q (Nat.zero_mod 8)
  | n + 1, hn, p, q => by
    by_cases h0 : (n + 1) % 8 = 0
    · exact acc_at_first V c ⟨n + 1, hn⟩ p q h0
    · have e1 : (n + 1) / 32 = n / 32 := by omega
      have e2 : (n + 1) / 8 % 4 = n / 8 % 4 := by omega
      have e3 : (n + 1) % 8 = n % 8 + 1 := by omega
      have ih := acc_inv c n (Nat.lt_of_succ_lt hn) p q
      refine acc_at_next V c ⟨n + 1, hn⟩ p q h0 ?_
      dsimp only
      rw [e1, e2, e3]
      exact ih

/-- The output block at a last-tile point: row 2048 i + p of x against row 1024 j + q of the weight over all 4096
    columns, plus the bias entry 1024 j + q. -/
theorem out_block (c : Dev nD) (t : Fin cfg1.N) (ht : t.val % 8 = 7) (p : Fin 2048) (q : Fin 1024)
    (hr : 2048 * (t.val / 32) + p.val < 8192) (hq : 1024 * (t.val / 8 % 4) + q.val < 4096) :
    (outsAt1 (F := Ideal) V c t.val t.isLt).1 (ix2 p q)
      = layerAt (V c main_arg0) (V c main_v0) (V c main_v12)
          ⟨2048 * (t.val / 32) + p.val, hr⟩ ⟨1024 * (t.val / 8 % 4) + q.val, hq⟩ := by
  refine (congrFun (out_last V c t ht) (ix2 p q)).trans ?_
  refine (pay_bias (outsAt1 V c t.val t.isLt).2 (iblk1 V c 2 t) p q).trans ?_
  rw [acc_inv V c t.val t.isLt p q, b_block V c t q hq, ht, layerAt_def]
  refine congrArg (· + _) ?_
  refine (accK_eight _).trans ?_
  exact Finset.sum_congr rfl fun k _ => prodAt_of_lt _ _ _ _ _ hr hq k.isLt

end Value

end Cert.KernelIdeal.R1V

end
-- ==== Proof.HostBias.lean ====
/-
  The bias row the kernel program prepares on the host between its two kernels.

  The host computes, entry by entry of the 4096 bias entries,
      mu + s * eps,    s = (r + log1p (exp (-r))  where r > 0,   log1p (exp r)  elsewhere),   r = rho,
  and lays the result out as a 1 x 4096 row. The two choices for s are both softplus r when r is real (log (1 + e^r) =
  r + log (1 + e^(-r))), so entry (0, q) of the row is the sampled bias mu q + softplus (rho q) * eps q.
-/
import proofs.«159802_j18494129176930_2_alg».proof.Proof.Spec
import proofs.«159802_j18494129176930_2_alg».proof.Proof.SoftplusLaw
import proofs.«159802_j18494129176930_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.Bayes

open Cert.KernelIdeal Cert.KernelIdeal.Gen Idealize.ShloMosaic Idealize.ShloMosaic.TcCoe Idealize.ShloMosaic.ValueIdx

/-- The host's bias computation as one function of the three bias arrays (mean, rho, noise): the stable softplus of rho,
    times the noise, plus the mean, laid out as a 1 x 4096 row. -/
def hostBias (mu rho eps : FVec Ideal S4096 .f32) : FVec Ideal S1x4096 .f32 :=
  shapeCast S1x4096
    (addf mu
      (mulf
        (select
          (cmpf .ogt rho (broadcastInDim S4096 ![] Facts₀.bcast_S_S4096 (constant (F := Ideal) S_ .f32 0x00000000#32)))
          (addf rho (Host.log1p (Host.exp (Host.negf rho))))
          (Host.log1p (Host.exp rho)))
        eps))
    Facts₀.shapeCasts_S4096_S1x4096

/-- Entry (0, q) of the row, where rho q is real, is the sampled bias at q. -/
theorem hostBias_apply (mu rho eps : FVec Ideal S4096 .f32) (q : Fin 4096) (r : ℝ) (h : rho (ix1 q) = (r : EReal)) :
    hostBias mu rho eps (ix2 (0 : Fin 1) q) = sample mu rho eps (ix1 q) := by
  unfold hostBias
  refine (shapeCast_a_1a_apply _ _ (0 : Fin 1) q).trans ?_
  show mu (ix1 q)
      + Scalar.select (Ideal.cmp .ogt (rho (ix1 q)) (Ideal.ofBits .f32 0x00000000#32))
          (rho (ix1 q) + Ideal.log1p (Ideal.exp (-(rho (ix1 q)))))
          (Ideal.log1p (Ideal.exp (rho (ix1 q)))) * eps (ix1 q)
    = mu (ix1 q) + softplus (rho (ix1 q)) * eps (ix1 q)
  rw [h, softplus_stable_neg r]

/-- What the buffer of the bias row holds after the three host stretches, from any contents W of the buffers: the
    host's bias function of W's three bias arrays. -/
theorem bias_term (W : Valuation τ sig (Elt Ideal)) :
    StableHlo.after hostOps1_2 (StableHlo.after hostOps1_1 (StableHlo.after hostOps1 W)) (main_v12 : DevRef τ sig)
      = hostBias (W (main_arg3 : DevRef τ sig)) (W (main_arg4 : DevRef τ sig)) (W (main_arg6 : DevRef τ sig)) := by
  after_results
  rfl

/-- Entry (0, q) of the bias row after the host stretches is the sampled bias at q, when every rho entry is real. -/
theorem bias_row (W : Valuation τ sig (Elt Ideal))
    (hreal : ∀ j, ∃ r : ℝ, (W (Proc.devRef .tc main_arg4) : S4096.Idx → EReal) j = (r : EReal)) (q : Fin 4096) :
    (StableHlo.after hostOps1_2 (StableHlo.after hostOps1_1 (StableHlo.after hostOps1 W)) (Proc.devRef .tc main_v12) :
        S1x4096.Idx → EReal) (ix2 0 q)
      = sample (W (Proc.devRef .tc main_arg3) : S4096.Idx → EReal) (W (Proc.devRef .tc main_arg4))
          (W (Proc.devRef .tc main_arg6)) (ix1 q) := by
  obtain ⟨r, hr⟩ := hreal (ix1 q)
  exact (congrFun (bias_term W) (ix2 0 q)).trans (hostBias_apply _ _ _ q r hr)

end Cert.Bayes

end
-- ==== Proof.Finite.lean ====
/-
  Under the precondition every entry of the two rho arrays is a real number.

  The precondition says, for each of the seven argument arrays, that |x| < +inf holds at every entry (an "all" over the
  array, the seven answers joined by "and"). On the extended reals |x| is max x (-x); it is +inf exactly when x is +inf or
  -inf, so |x| < +inf leaves only the reals. The "and" of the seven answers being 1 gives each answer 1, and an "all"
  that is 1 gives the fact at every entry.
-/
import proofs.«159802_j18494129176930_2_alg».proof.Proof.Spec
import proofs.«159802_j18494129176930_2_alg».proof.Defs
import Idealize.ShloMosaic.Lib.ReduceAll

noncomputable section

namespace Cert.Bayes

open Idealize.ShloMosaic

/-- The rank-0 shape has one index. -/
instance subsingleton_scalar_idx : Subsingleton Cert.Pre_finite_inputs.S_.Idx := ⟨fun a b => funext fun d => d.elim0⟩

/-- The float word 0x7F800000 denotes +inf. -/
theorem ofBits_inf_f32 : Ideal.ofBits .f32 0x7F800000#32 = ⊤ := by simp [Ideal.ofBits, Ideal.ieee]

/-- An extended real whose absolute value compares below +inf is a real. -/
theorem real_of_abs_lt (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

/-- An array whose "all entries have |x| < +inf" test answers 1 holds only reals. -/
theorem all_real {s : Shape} {axes : List (Fin s.rank)} (a : FVec Ideal s .f32)
    (bc : Cert.Pre_finite_inputs.S_.BroadcastsInDim s (![] : Fin 0 → Fin s.rank))
    (red : s.ReducesTo axes Cert.Pre_finite_inputs.S_) (hu : 0 < Cert.Pre_finite_inputs.S_.numel)
    (e : Host.reduce IntOp.andi
          (cmpf .olt (Host.absf a) (broadcastInDim s ![] bc (constant (F := Ideal) Cert.Pre_finite_inputs.S_ .f32 0x7F800000#32)))
          (constantI Cert.Pre_finite_inputs.S_ 1 1#1) red hu ValueIdx.ix0 = 1#1) :
    ∀ j, ∃ r : ℝ, a j = (r : EReal) := fun j =>
  real_of_abs_lt (a j) (Host.reduce_andi_all _ _ red hu ValueIdx.ix0 e j)

/-- The precondition's function over seven arrays: if it answers 1, the third and the fifth array hold only reals. -/
theorem real_of_fn [Cert.Pre_finite_inputs.Facts]
    (a0 : FVec Ideal Cert.Pre_finite_inputs.S8192x4096 .f32) (a1 a2 : FVec Ideal Cert.Pre_finite_inputs.S4096x4096 .f32)
    (a3 a4 : FVec Ideal Cert.Pre_finite_inputs.S4096 .f32) (a5 : FVec Ideal Cert.Pre_finite_inputs.S4096x4096 .f32)
    (a6 : FVec Ideal Cert.Pre_finite_inputs.S4096 .f32)
    (h : Cert.Pre_finite_inputs.fn (F := Ideal) a0 a1 a2 a3 a4 a5 a6 = fun _ => 1#1) :
    (∀ j, ∃ r : ℝ, a2 j = (r : EReal)) ∧ (∀ j, ∃ r : ℝ, a4 j = (r : EReal)) := by
  have h0 := congrFun h ValueIdx.ix0
  dsimp only [Cert.Pre_finite_inputs.fn, Cert.Pre_finite_inputs.fn_part1] at h0
  obtain ⟨h28, _⟩ := IntOp.andi_eq_one.1 h0
  obtain ⟨h23, _⟩ := IntOp.andi_eq_one.1 h28
  obtain ⟨h18, h22⟩ := IntOp.andi_eq_one.1 h23
  obtain ⟨h13, _⟩ := IntOp.andi_eq_one.1 h18
  obtain ⟨_, h12⟩ := IntOp.andi_eq_one.1 h13
  exact ⟨all_real a2 _ _ _ h12, all_real a4 _ _ _ h22⟩

/-- Under the kernel's precondition both rho arrays (the weight's and the bias's) hold only reals, on every device. -/
theorem rho_real [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ r : ℝ, m ((c.tc : Thread _ _).loc Cert.KernelIdeal.main_arg2) j = (r : EReal))
      ∧ (∀ j, ∃ r : ℝ, m ((c.tc : Thread _ _).loc Cert.KernelIdeal.main_arg4) j = (r : EReal)) :=
  real_of_fn _ _ _ _ _ _ _ (h c)

end Cert.Bayes

end
-- ==== Proof.KI_Value.lean ====
/-
  The kernel program's result is the layer.

  When the second kernel is entered, its three input arrays hold: x as launched (nothing wrote it); the sampled weight
  the first kernel left, which is mu + softplus(rho) * eps entry by entry because rho is real (the stable spelling of the
  softplus agrees with log (1 + e^r) on the reals); and the bias row the host computed, likewise. Each output block of the
  second kernel is the contraction over all 4096 columns, accumulated in 8 tiles of 512 from a cleared total, plus the
  bias entry; the blocks tile the result array. So the result array is the layer's output, index by index.
-/
import proofs.«159802_j18494129176930_2_alg».proof.Proof.KI_Claims
import proofs.«159802_j18494129176930_2_alg».proof.Proof.KI_R0Value
import proofs.«159802_j18494129176930_2_alg».proof.Proof.KI_R1Value
import proofs.«159802_j18494129176930_2_alg».proof.Proof.KI_R1Acc
import proofs.«159802_j18494129176930_2_alg».proof.Proof.HostBias
import proofs.«159802_j18494129176930_2_alg».proof.Proof.Finite
import proofs.«159802_j18494129176930_2_alg».proof.Proof.LayerAt
import proofs.«159802_j18494129176930_2_alg».proof.Defs

set_option maxRecDepth 16384

noncomputable section

namespace Cert.KernelIdeal.Total

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelIdeal.Whole Cert.Bayes ValueIdx

variable (m : (ℓ : Loc nD τ sig) → Buf (Elt Ideal) ℓ) (ρ : Dev nD → PrngReg)

/-- x reaches the second kernel as launched. -/
theorem entry_x (c : Dev nD) : U4 m c main_arg0 = m ((c.tc : Thread nD τ).loc main_arg0) :=
  (W4_of m c main_arg0 (by decide) (by decide) (by decide)).trans ((W1_of_ne m c main_arg0 (by decide)).trans rfl)

/-- The weight the second kernel reads is the sampled one. -/
theorem entry_w (c : Dev nD) (hrho : ∀ j, ∃ r : ℝ, m ((c.tc : Thread nD τ).loc main_arg2) j = (r : EReal)) :
    U4 m c main_v0 = Cert.Bayes.sample (m ((c.tc : Thread nD τ).loc main_arg1)) (m ((c.tc : Thread nD τ).loc main_arg2)) (m ((c.tc : Thread nD τ).loc main_arg5)) :=
  (W4_of m c main_v0 (by decide) (by decide) (by decide)).trans ((W1_arr m c 3).trans (R0V.weight_array (U0 m) c hrho))

/-- The bias row the second kernel reads is the sampled bias, entry by entry. -/
theorem entry_b (c : Dev nD) (hrho : ∀ j, ∃ r : ℝ, m ((c.tc : Thread nD τ).loc main_arg4) j = (r : EReal)) (q : Fin 4096) :
    (U4 m c main_v12 : S1x4096.Idx → EReal) (ix2 0 q)
      = Cert.Bayes.sample (m ((c.tc : Thread nD τ).loc main_arg3)) (m ((c.tc : Thread nD τ).loc main_arg4)) (m ((c.tc : Thread nD τ).loc main_arg6)) (ix1 q) := by
  have h := Cert.Bayes.bias_row (W1 m c) (fun j => by rw [W1_of_ne m c main_arg4 (by decide)]; exact hrho j) q
  rw [W1_of_ne m c main_arg3 (by decide), W1_of_ne m c main_arg4 (by decide), W1_of_ne m c main_arg6 (by decide)] at h
  exact h

/-- The result array is the layer's output. -/
theorem value [Cert.Pre_finite_inputs.Facts] (hpre : Cert.Pre_KernelIdeal m) (c : Dev nD) :
    (R1.dat1 (F := Ideal) (U4 m) c).arrAt 3 cfg1.N = Cert.Bayes.affine (m ((c.tc : Thread nD τ).loc main_arg0)) (Cert.Bayes.sample (m ((c.tc : Thread nD τ).loc main_arg1)) (m ((c.tc : Thread nD τ).loc main_arg2)) (m ((c.tc : Thread nD τ).loc main_arg5))) (Cert.Bayes.sample (m ((c.tc : Thread nD τ).loc main_arg3)) (m ((c.tc : Thread nD τ).loc main_arg4)) (m ((c.tc : Thread nD τ).loc main_arg6))) := by
  obtain ⟨hrho, hbrho⟩ := Cert.Bayes.rho_real m hpre c
  rw [R1W.result_array (U4 m) c (fun t ht p q hr hq => R1V.out_block (U4 m) c t ht p q hr hq)]
  funext i
  obtain ⟨r, o, rfl⟩ : ∃ (r : Fin 8192) (o : Fin 4096), i = ix2 r o := ⟨i 0, i 1, ValueIdx.eq_ix2 i⟩
  show Cert.Bayes.layerAt (U4 m c main_arg0) (U4 m c main_v0) (U4 m c main_v12) r o
    = Cert.Bayes.affineAt (m ((c.tc : Thread nD τ).loc main_arg0)) (Cert.Bayes.sample (m ((c.tc : Thread nD τ).loc main_arg1)) (m ((c.tc : Thread nD τ).loc main_arg2)) (m ((c.tc : Thread nD τ).loc main_arg5))) (Cert.Bayes.sample (m ((c.tc : Thread nD τ).loc main_arg3)) (m ((c.tc : Thread nD τ).loc main_arg4)) (m ((c.tc : Thread nD τ).loc main_arg6))) r o
  rw [entry_x m c, entry_w m c hrho]
  unfold Cert.Bayes.affineAt Cert.Bayes.layerAt
  rw [entry_b m c hbrho o]

/-- THE KERNEL PROGRAM'S RUN with the result named: every weakly fair execution terminates with the result buffer at the
    layer's output and the arguments as launched. -/
theorem kernel_result [Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v13) = Cert.Bayes.affine (m ((c.tc : Thread nD τ).loc main_arg0)) (Cert.Bayes.sample (m ((c.tc : Thread nD τ).loc main_arg1)) (m ((c.tc : Thread nD τ).loc main_arg2)) (m ((c.tc : Thread nD τ).loc main_arg5))) (Cert.Bayes.sample (m ((c.tc : Thread nD τ).loc main_arg3)) (m ((c.tc : Thread nD τ).loc main_arg4)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (value m hpre c), (h c).2⟩) (result m ρ)

end Cert.KernelIdeal.Total

end
-- ==== Proof.RefIsSpec.lean ====
/-
  The reference program computes the layer of the specification.

  Read one output entry (t, o) of the reference, operation by operation: it is the dot product of row t of x with row o
  of the array  mu_w + log1p (exp rho_w) * eps_w,  plus entry o of the vector  mu_b + log1p (exp rho_b) * eps_b  (the bias
  is first laid out as a 1 x 4096 row and then repeated over the 8192 rows, so that entry (t, o) of the repeated array
  is entry o of the vector). Since softplus is log1p of exp, the two arrays are the sampled weight and the sampled bias,
  and the entry is the specification's.
-/
import proofs.«159802_j18494129176930_2_alg».proof.Proof.Spec
import proofs.«159802_j18494129176930_2_alg».proof.Proof.Gen.ReferenceIdeal.Read

noncomputable section

namespace Cert.Bayes

open Cert.ReferenceIdeal Idealize.ShloMosaic Idealize.ShloMosaic.ValueIdx

/-- The reference's result is the layer applied to x with the sampled weight and the sampled bias. -/
theorem ref_eq (x0 : (⟨Cert.ReferenceIdeal.S8192x4096, .f32⟩ : BufTy).Contents (Elt Ideal))
    (x1 x2 : (⟨Cert.ReferenceIdeal.S4096x4096, .f32⟩ : BufTy).Contents (Elt Ideal))
    (x3 x4 : (⟨Cert.ReferenceIdeal.S4096, .f32⟩ : BufTy).Contents (Elt Ideal))
    (x5 : (⟨Cert.ReferenceIdeal.S4096x4096, .f32⟩ : BufTy).Contents (Elt Ideal))
    (x6 : (⟨Cert.ReferenceIdeal.S4096, .f32⟩ : BufTy).Contents (Elt Ideal)) :
    Cert.ReferenceIdeal.Read.val_main_v11 (F := Ideal) x0 x1 x2 x3 x4 x5 x6 = affine x0 (sample x1 x2 x5) (sample x3 x4 x6) := by
  funext i
  obtain ⟨t, o, rfl⟩ : ∃ (t : Fin 8192) (o : Fin 4096), i = ix2 t o := ⟨i 0, i 1, eq_ix2 i⟩
  -- the operand indices of the dot product, and the bias entry read through the two broadcasts, by coordinates
  have hl : ∀ k : Fin 4096, Read.lidx_main_v8 (ix2 t o) k = ix2 t k := fun k =>
    funext fun a => Fin.ext (by match a with | ⟨0, _⟩ => rfl | ⟨1, _⟩ => rfl)
  have hr : ∀ k : Fin 4096, Read.ridx_main_v8 (ix2 t o) k = ix2 o k := fun k =>
    funext fun a => Fin.ext (by match a with | ⟨0, _⟩ => rfl | ⟨1, _⟩ => rfl)
  have hb : Read.idx_main_v9 (Read.idx_main_v10 (ix2 t o)) = ix1 o :=
    funext fun a => Fin.ext (by match a with | ⟨0, _⟩ => rfl)
  rw [Read.val_main_v11_apply, Read.val_main_v8_apply, Read.val_main_v10_apply, Read.val_main_v9_apply,
    Read.val_main_v7_apply, Read.val_main_v6_apply, Read.val_main_v5_apply, Read.val_main_v4_apply]
  simp only [Read.val_main_v3_apply, Read.val_main_v2_apply, Read.val_main_v1_apply, Read.val_main_v0_apply,
    Ideal.hostUnary_exp_def, Ideal.hostUnary_log1p_def, Ideal.mulf_def, Ideal.addf_def, hl, hr, hb]
  rfl

end Cert.Bayes

end
-- ==== Proof.lean ====
/-
  A Bayesian linear layer: the weight and the bias are sampled as mu + softplus(rho) * eps and applied to the rows of x,
      out (t, o) = (sum over k of x (t, k) * w (o, k)) + b o.
  The kernel program does it in two kernels — one samples the weight (with the softplus spelt in the numerically stable
  way, r + log (1 + e^(-r)) for r > 0), one multiplies, accumulating the 4096 contracted columns in 8 tiles of 512 in a
  buffer of its own and adding the bias on the last tile — with the bias sampled on the host in between. The reference
  does it in plain array operations with log (1 + e^r) and one contraction.

  The frames: each program runs to the end, faults nowhere, and leaves its arguments as launched — for the kernel program,
  at either float instance, by running its five items in order (Proof/K_Claims.lean, Proof/KI_Claims.lean: one text read at
  the two instances); for the reference, its run with the result dropped.
  The idealization rewrote nothing, so `preserves` has nothing to say.
  The two idealized programs agree: on real rho the two spellings of the softplus are one function, a sum over 4096 terms
  is the sum of its 8 tiles, and changes of float format are the identity on the extended reals; so both results are the
  layer's output `Cert.Bayes.affine` of the same arguments (Proof/KI_Value.lean, Proof/RefIsSpec.lean). Finiteness of the
  inputs is used for rho only.
-/
import proofs.«159802_j18494129176930_2_alg».proof.Defs
import proofs.«159802_j18494129176930_2_alg».proof.Proof.K_Claims
import proofs.«159802_j18494129176930_2_alg».proof.Proof.KI_Value
import proofs.«159802_j18494129176930_2_alg».proof.Proof.RefIsSpec
import proofs.«159802_j18494129176930_2_alg».proof.Proof.Gen.Kernel
import proofs.«159802_j18494129176930_2_alg».proof.Proof.Gen.KernelIdeal
import proofs.«159802_j18494129176930_2_alg».proof.Proof.Gen.ReferenceIdeal
import proofs.«159802_j18494129176930_2_alg».proof.Proof.Gen.Pre_finite_inputs
import proofs.«159802_j18494129176930_2_alg».proof.Proof.Gen.ReferenceIdeal.Run
import proofs.«159802_j18494129176930_2_alg».proof.Proof.Gen.ReferenceIdeal.Read
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Whole.frame m ρ

/-- So does the idealized one: the same run read at the extended reals. -/
theorem frame_kernelIdeal : Cert.frame_KernelIdeal := fun m ρ _ => Cert.KernelIdeal.Whole.frame m ρ

/-- The reference's run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the layer's output of the (agreeing) arguments. -/
theorem algebraic : Cert.algebraic_KernelIdeal_ReferenceIdeal := by
  intro m ρ m' ρ' hpre hagree
  refine ⟨_, Cert.KernelIdeal.Total.kernel_result m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.Bayes.ref_eq, (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
